-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x5 : Shape := ⟨3, ![64, 16384, 5]⟩
abbrev S24x4 : Shape := ⟨2, ![24, 4]⟩
abbrev S5x64 : Shape := ⟨2, ![5, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S64x16384x5 : S_.BroadcastsInDim S64x16384x5 (![] : Fin 0 → Fin S64x16384x5.rank)
  reducesTo_S64x16384x5_S_d0_1_2 : S64x16384x5.ReducesTo [0, 1, 2] S_
  h_S_ : 0 < S_.numel
  bcast_S_S24x4 : S_.BroadcastsInDim S24x4 (![] : Fin 0 → Fin S24x4.rank)
  reducesTo_S24x4_S_d0_1 : S24x4.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32x1 .f32) (main_arg8 : FVec F S1 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64 .f32) (main_arg5 : FVec F S64x32 .f32) (main_arg6 : FVec F S32 .f32) (main_arg7 : FVec F S32x1 .f32) (main_arg8 : FVec F S1 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S64x16384x5 .f32) (main_arg1 : FVec F S24x4 .f32) (main_arg2 : FVec F S24x4 .f32) (main_arg3 : FVec F S5x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S64x16384x5 .f32 := Host.absf main_arg0
  let main_cst : FVec F S_ .f32 := constant S_ .f32 0x7F800000#32
  let main_v1 : FVec F S64x16384x5 .f32 := broadcastInDim S64x16384x5 ![] bcast_S_S64x16384x5 main_cst
  let main_v2 : IVec S64x16384x5 1 := cmpf .olt main_v0 main_v1
  let main_c : IVec S_ 1 := constantI S_ 1 1#1
  let main_v3 : IVec S_ 1 := (fun x v => Host.reduce IntOp.andi x v reducesTo_S64x16384x5_S_d0_1_2 h_S_) main_v2 main_c
  let main_v4 : FVec F S24x4 .f32 := Host.absf main_arg1
  let main_cst_0 : FVec F S_ .f32 := constant S_ .f32 0x7F800000#32
  let main_v5 : FVec F S24x4 .f32 := broadcastInDim S24x4 ![] bcast_S_S24x4 main_cst_0
  let main_v6 : IVec S24x4 1 := cmpf .olt main_v4 main_v5
  let main_c_1 : IVec S_ 1 := constantI S_ 1 1#1
  let main_v7 : IVec S_ 1 := (fun x v => Host.reduce IntOp.andi x v reducesTo_S24x4_S_d0_1 h_S_) main_v6 main_c_1
  let main_v8 : IVec S_ 1 := andi main_v3 main_v7
  let main_v9 : FVec F S24x4 .f32 := Host.absf main_arg2
  let main_cst_2 : FVec F S_ .f32 := constant S_ .f32 0x7F800000#32
  let main_v10 : FVec F S24x4 .f32 := broadcastInDim S24x4 ![] bcast_S_S24x4 main_cst_2
  let main_v11 : IVec S24x4 1 := cmpf .olt main_v9 main_v10
  let main_c_3 : IVec S_ 1 := constantI S_ 1 1#1
  let main_v12 : IVec S_ 1 := (fun x v => Host.reduce IntOp.andi x v reducesTo_S24x4_S_d0_1 h_S_) main_v11 main_c_3
  let main_v13 : IVec S_ 1 := andi main_v8 main_v12
  let main_v14 : FVec F S5x64 .f32 := Host.absf main_arg3
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg4 main_arg5 main_arg6 main_arg7 main_arg8 main_v13 main_v16
-- ==== Kernel.lean ====
abbrev S64x16384x5 : Shape := ⟨3, ![64, 16384, 5]⟩
abbrev S24x4 : Shape := ⟨2, ![24, 4]⟩
abbrev S5x64 : Shape := ⟨2, ![5, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1048576x5 : Shape := ⟨2, ![1048576, 5]⟩
abbrev S24x8 : Shape := ⟨2, ![24, 8]⟩
abbrev S64x1 : Shape := ⟨2, ![64, 1]⟩
abbrev S1x1 : Shape := ⟨2, ![1, 1]⟩
abbrev S1048576 : Shape := ⟨1, ![1048576]⟩
abbrev S16384x5 : Shape := ⟨2, ![16384, 5]⟩
abbrev S16384 : Shape := ⟨1, ![16384]⟩
abbrev S5x16384 : Shape := ⟨2, ![5, 16384]⟩
abbrev S4x16384 : Shape := ⟨2, ![4, 16384]⟩
abbrev S1x16384 : Shape := ⟨2, ![1, 16384]⟩
abbrev S24x16384 : Shape := ⟨2, ![24, 16384]⟩
abbrev S8x16384 : Shape := ⟨2, ![8, 16384]⟩
abbrev S64x16384 : Shape := ⟨2, ![64, 16384]⟩
abbrev S32x16384 : Shape := ⟨2, ![32, 16384]⟩

abbrev nBuf : Space → Nat
  | .hbm => 16
  | .vmem => 11
  | .smem => 0
  | _ => 0

abbrev bufTy : (tb : Table) → Fin (tcTables nBuf tb) → BufTy
  | .hbm, ⟨0, _⟩ => ⟨S64x16384x5, .f32⟩
  | .hbm, ⟨1, _⟩ => ⟨S24x4, .f32⟩
  | .hbm, ⟨2, _⟩ => ⟨S24x4, .f32⟩
  | .hbm, ⟨3, _⟩ => ⟨S5x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1048576x5, .f32⟩
  | .hbm, ⟨10, _⟩ => ⟨S24x8, .f32⟩
  | .hbm, ⟨11, _⟩ => ⟨S64x1, .f32⟩
  | .hbm, ⟨12, _⟩ => ⟨S32x1, .f32⟩
  | .hbm, ⟨13, _⟩ => ⟨S1x1, .f32⟩
  | .hbm, ⟨14, _⟩ => ⟨S1048576, .f32⟩
  | .hbm, ⟨15, _⟩ => ⟨S64x16384, .f32⟩
  | .local _ .vmem, ⟨0, _⟩ => ⟨S16384x5, .f32⟩
  | .local _ .vmem, ⟨1, _⟩ => ⟨S16384x5, .f32⟩
  | .local _ .vmem, ⟨2, _⟩ => ⟨S24x8, .f32⟩
  | .local _ .vmem, ⟨3, _⟩ => ⟨S5x64, .f32⟩
  | .local _ .vmem, ⟨4, _⟩ => ⟨S64x1, .f32⟩
  | .local _ .vmem, ⟨5, _⟩ => ⟨S64x32, .f32⟩
  | .local _ .vmem, ⟨6, _⟩ => ⟨S32x1, .f32⟩
  | .local _ .vmem, ⟨7, _⟩ => ⟨S32x1, .f32⟩
  | .local _ .vmem, ⟨8, _⟩ => ⟨S1x1, .f32⟩
  | .local _ .vmem, ⟨9, _⟩ => ⟨S16384, .f32⟩
  | .local _ .vmem, ⟨10, _⟩ => ⟨S16384, .f32⟩
  | _, _ => ⟨S64x16384x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x16384x5_S1048576x5 : S64x16384x5.ShapeCasts S1048576x5
  concatenates_S24x4_S24x4_S24x8_d1 : Shape.Concatenates [S24x4, S24x4] S24x8 1
  shapeCasts_S64_S64x1 : S64.ShapeCasts S64x1
  shapeCasts_S32_S32x1 : S32.ShapeCasts S32x1
  shapeCasts_S1_S1x1 : S1.ShapeCasts S1x1
  inb_S16384x5_S16384x5_0_0 : ∀ a, (![0, 0] : Fin 2 → Nat) a + S16384x5.size a ≤ S16384x5.size a
  h_S16384x5 : 0 < S16384x5.numel
  shapeCasts_S16384x5_S16384x5 : S16384x5.ShapeCasts S16384x5
  transposes_S16384x5_p1_0_S5x16384 : S16384x5.Transposes [1, 0] S5x16384
  slices_S5x16384_o0_0_S4x16384 : S5x16384.Slices ![0, 0] S4x16384
  slices_S5x16384_o4_0_S1x16384 : S5x16384.Slices ![4, 0] S1x16384
  reduces_S4x16384_S16384 : S4x16384.Reduces [0] S16384
  shapeCasts_S16384_S1x16384 : S16384.ShapeCasts S1x16384
  broadcasts_S1x16384_S4x16384 : S1x16384.Broadcasts S4x16384
  iota_S24x16384_d0_w32 : S24x16384.Iotas .tc 32 [0]
  broadcasts_S1x16384_S24x16384 : S1x16384.Broadcasts S24x16384
  natLt_1_32 : 1 < 32
  bitsLt_bf16_f32 : FTy.bits .bf16 < FTy.bits .f32
  inb_S24x8_S24x8_0_0 : ∀ a, (![0, 0] : Fin 2 → Nat) a + S24x8.size a ≤ S24x8.size a
  h_S24x8 : 0 < S24x8.numel
  shapeCasts_S24x8_S24x8 : S24x8.ShapeCasts S24x8
  slices_S8x16384_o0_0_S4x16384 : S8x16384.Slices ![0, 0] S4x16384
  slices_S8x16384_o4_0_S4x16384 : S8x16384.Slices ![4, 0] S4x16384
  concatenates_S4x16384_S1x16384_S5x16384_d0 : Shape.Concatenates [S4x16384, S1x16384] S5x16384 0
  inb_S5x64_S5x64_0_0 : ∀ a, (![0, 0] : Fin 2 → Nat) a + S5x64.size a ≤ S5x64.size a
  h_S5x64 : 0 < S5x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S64x32_S64x32_0_0 : ∀ a, (![0, 0] : Fin 2 → Nat) a + S64x32.size a ≤ S64x32.size a
  h_S64x32 : 0 < S64x32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  shapeCasts_S1x16384_S16384 : S1x16384.ShapeCasts S16384
  inb_S16384_S16384_0 : ∀ a, (![0] : Fin 1 → Nat) a + S16384.size a ≤ S16384.size a
  h_S16384 : 0 < S16384.numel
  shapeCasts_S1048576_S64x16384 : S1048576.ShapeCasts S64x16384
  dot_S24x8_S24x16384_S8x16384_0_0_1_1_n_n_wf : DotDims.WF S24x8 S24x16384 S8x16384 [0] [0] [1] [1] [] []
  dot_S5x64_S5x16384_S64x16384_0_0_1_1_n_n_wf : DotDims.WF S5x64 S5x16384 S64x16384 [0] [0] [1] [1] [] []
  dot_S64x32_S64x16384_S32x16384_0_0_1_1_n_n_wf : DotDims.WF S64x32 S64x16384 S32x16384 [0] [0] [1] [1] [] []
  dot_S32x1_S32x16384_S1x16384_0_0_1_1_n_n_wf : DotDims.WF S32x1 S32x16384 S1x16384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x5.size a ≤ S1048576x5.size a
  hwx0_0 : ∀ i : grid0.Coords, EltTy.bits .f32 = 32 ∨ (Rect.block (s := S1048576x5) S16384x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x8.size a ≤ S24x8.size a
  hwx0_1 : ∀ i : grid0.Coords, EltTy.bits .f32 = 32 ∨ (Rect.block (s := S24x8) S24x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x64.size a ≤ S5x64.size a
  hwx0_2 : ∀ i : grid0.Coords, EltTy.bits .f32 = 32 ∨ (Rect.block (s := S5x64) S5x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16384.size a ≤ S1048576.size a
  hwx0_8 : ∀ i : grid0.Coords, EltTy.bits .f32 = 32 ∨ (Rect.block (s := S1048576) S16384.size (cc0_transform_8 i) (hinb0_8 i)).WholeWords (EltTy.packing .f32)

variable [Facts₀]

def dot_S24x8_S24x16384_S8x16384_0_0_1_1_n_n : DotDims S24x8 S24x16384 S8x16384 where
  lhsContracting := [0]
  rhsContracting := [0]
  lhsNonContracting := [1]
  rhsNonContracting := [1]
  lhsBatch := []
  rhsBatch := []
  wf := dot_S24x8_S24x16384_S8x16384_0_0_1_1_n_n_wf
def dot_S5x64_S5x16384_S64x16384_0_0_1_1_n_n : DotDims S5x64 S5x16384 S64x16384 where
  lhsContracting := [0]
  rhsContracting := [0]
  lhsNonContracting := [1]
  rhsNonContracting := [1]
  lhsBatch := []
  rhsBatch := []
  wf := dot_S5x64_S5x16384_S64x16384_0_0_1_1_n_n_wf
def dot_S64x32_S64x16384_S32x16384_0_0_1_1_n_n : DotDims S64x32 S64x16384 S32x16384 where
  lhsContracting := [0]
  rhsContracting := [0]
  lhsNonContracting := [1]
  rhsNonContracting := [1]
  lhsBatch := []
  rhsBatch := []
  wf := dot_S64x32_S64x16384_S32x16384_0_0_1_1_n_n_wf
def dot_S32x1_S32x16384_S1x16384_0_0_1_1_n_n : DotDims S32x1 S32x16384 S1x16384 where
  lhsContracting := [0]
  rhsContracting := [0]
  lhsNonContracting := [1]
  rhsNonContracting := [1]
  lhsBatch := []
  rhsBatch := []
  wf := dot_S32x1_S32x16384_S1x16384_0_0_1_1_n_n_wf

abbrev win0_0 : Pipeline.Window sig grid0 :=
  Pipeline.Window.ofSpec (Memref.whole main_v0) S16384x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S16384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x16384x5 : Shape := ⟨3, ![64, 16384, 5]⟩
abbrev S24x4 : Shape := ⟨2, ![24, 4]⟩
abbrev S5x64 : Shape := ⟨2, ![5, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1048576x5 : Shape := ⟨2, ![1048576, 5]⟩
abbrev S1048576x1 : Shape := ⟨2, ![1048576, 1]⟩
abbrev S1048576 : Shape := ⟨1, ![1048576]⟩
abbrev S_ : Shape := ⟨0, ![]⟩
abbrev S1048576x4 : Shape := ⟨2, ![1048576, 4]⟩
abbrev S1048576x64 : Shape := ⟨2, ![1048576, 64]⟩
abbrev S1x64 : Shape := ⟨2, ![1, 64]⟩
abbrev S1048576x32 : Shape := ⟨2, ![1048576, 32]⟩
abbrev S1x32 : Shape := ⟨2, ![1, 32]⟩
abbrev S1x1 : Shape := ⟨2, ![1, 1]⟩
abbrev S64x16384 : Shape := ⟨2, ![64, 16384]⟩

abbrev nBuf : Space → Nat
  | .hbm => 89
  | .vmem => 0
  | .smem => 0
  | _ => 0

abbrev bufTy : (tb : Table) → Fin (tcTables nBuf tb) → BufTy
  | .hbm, ⟨0, _⟩ => ⟨S64x16384x5, .f32⟩
  | .hbm, ⟨1, _⟩ => ⟨S24x4, .f32⟩
  | .hbm, ⟨2, _⟩ => ⟨S24x4, .f32⟩
  | .hbm, ⟨3, _⟩ => ⟨S5x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1048576x5, .f32⟩
  | .hbm, ⟨10, _⟩ => ⟨S1048576x1, .f32⟩
  | .hbm, ⟨11, _⟩ => ⟨S1048576, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S1048576, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576x4, .f32⟩
  | .hbm, ⟨25, _⟩ => ⟨S_, .f32⟩
  | .hbm, ⟨26, _⟩ => ⟨S1048576, .f32⟩
  | .hbm, ⟨27, _⟩ => ⟨S1048576x1, .f32⟩
  | .hbm, ⟨28, _⟩ => ⟨S_, .f32⟩
  | .hbm, ⟨29, _⟩ => ⟨S1048576x1, .f32⟩
  | .hbm, ⟨30, _⟩ => ⟨S1048576x1, .f32⟩
  | .hbm, ⟨31, _⟩ => ⟨S1048576x4, .f32⟩
  | .hbm, ⟨32, _⟩ => ⟨S1048576x4, .f32⟩
  | .hbm, ⟨33, _⟩ => ⟨S1048576x4, .f32⟩
  | .hbm, ⟨34, _⟩ => ⟨S_, .f32⟩
  | .hbm, ⟨35, _⟩ => ⟨S1048576, .f32⟩
  | .hbm, ⟨36, _⟩ => ⟨S1048576x1, .f32⟩
  | .hbm, ⟨37, _⟩ => ⟨S_, .f32⟩
  | .hbm, ⟨38, _⟩ => ⟨S1048576x1, .f32⟩
  | .hbm, ⟨39, _⟩ => ⟨S1048576x1, .f32⟩
  | .hbm, ⟨40, _⟩ => ⟨S1048576x4, .f32⟩
  | .hbm, ⟨41, _⟩ => ⟨S1048576x4, .f32⟩
  | .hbm, ⟨42, _⟩ => ⟨S_, .f32⟩
  | .hbm, ⟨43, _⟩ => ⟨S1048576x1, .f32⟩
  | .hbm, ⟨44, _⟩ => ⟨S1048576x1, .f32⟩
  | .hbm, ⟨45, _⟩ => ⟨S1048576x1, .f32⟩
  | .hbm, ⟨46, _⟩ => ⟨S1048576x4, .f32⟩
  | .hbm, ⟨47, _⟩ => ⟨S1048576x4, .f32⟩
  | .hbm, ⟨48, _⟩ => ⟨S_, .i32⟩
  | .hbm, ⟨49, _⟩ => ⟨S1048576, .i32⟩
  | .hbm, ⟨50, _⟩ => ⟨S1048576, .i1⟩
  | .hbm, ⟨51, _⟩ => ⟨S_, .i32⟩
  | .hbm, ⟨52, _⟩ => ⟨S1048576, .i32⟩
  | .hbm, ⟨53, _⟩ => ⟨S1048576, .i32⟩
  | .hbm, ⟨54, _⟩ => ⟨S1048576, .i32⟩
  | .hbm, ⟨55, _⟩ => ⟨S1048576x1, .i32⟩
  | .hbm, ⟨56, _⟩ => ⟨S1048576x4, .f32⟩
  | .hbm, ⟨57, _⟩ => ⟨S1048576x4, .f32⟩
  | .hbm, ⟨58, _⟩ => ⟨S_, .i32⟩
  | .hbm, ⟨59, _⟩ => ⟨S1048576, .i32⟩
  | .hbm, ⟨60, _⟩ => ⟨S1048576, .i1⟩
  | .hbm, ⟨61, _⟩ => ⟨S_, .i32⟩
  | .hbm, ⟨62, _⟩ => ⟨S1048576, .i32⟩
  | .hbm, ⟨63, _⟩ => ⟨S1048576, .i32⟩
  | .hbm, ⟨64, _⟩ => ⟨S1048576, .i32⟩
  | .hbm, ⟨65, _⟩ => ⟨S1048576x1, .i32⟩
  | .hbm, ⟨66, _⟩ => ⟨S1048576x4, .f32⟩
  | .hbm, ⟨67, _⟩ => ⟨S1048576x4, .f32⟩
  | .hbm, ⟨68, _⟩ => ⟨S1048576x1, .f32⟩
  | .hbm, ⟨69, _⟩ => ⟨S1048576x5, .f32⟩
  | .hbm, ⟨70, _⟩ => ⟨S1048576x64, .f32⟩
  | .hbm, ⟨71, _⟩ => ⟨S1x64, .f32⟩
  | .hbm, ⟨72, _⟩ => ⟨S1048576x64, .f32⟩
  | .hbm, ⟨73, _⟩ => ⟨S1048576x64, .f32⟩
  | .hbm, ⟨74, _⟩ => ⟨S_, .f32⟩
  | .hbm, ⟨75, _⟩ => ⟨S1048576x64, .f32⟩
  | .hbm, ⟨76, _⟩ => ⟨S1048576x64, .f32⟩
  | .hbm, ⟨77, _⟩ => ⟨S1048576x32, .f32⟩
  | .hbm, ⟨78, _⟩ => ⟨S1x32, .f32⟩
  | .hbm, ⟨79, _⟩ => ⟨S1048576x32, .f32⟩
  | .hbm, ⟨80, _⟩ => ⟨S1048576x32, .f32⟩
  | .hbm, ⟨81, _⟩ => ⟨S_, .f32⟩
  | .hbm, ⟨82, _⟩ => ⟨S1048576x32, .f32⟩
  | .hbm, ⟨83, _⟩ => ⟨S1048576x32, .f32⟩
  | .hbm, ⟨84, _⟩ => ⟨S1048576x1, .f32⟩
  | .hbm, ⟨85, _⟩ => ⟨S1x1, .f32⟩
  | .hbm, ⟨86, _⟩ => ⟨S1048576x1, .f32⟩
  | .hbm, ⟨87, _⟩ => ⟨S1048576x1, .f32⟩
  | .hbm, ⟨88, _⟩ => ⟨S64x16384, .f32⟩
  | _, _ => ⟨S64x16384x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  shapeCasts_S64x16384x5_S1048576x5 : S64x16384x5.ShapeCasts S1048576x5
  slices_S1048576x5_S1048576x1_0_4 : S1048576x5.Slices ![0, 4] S1048576x1
  shapeCasts_S1048576x1_S1048576 : S1048576x1.ShapeCasts S1048576
  bcast_S_S1048576 : S_.BroadcastsInDim S1048576 (![] : Fin 0 → Fin S1048576.rank)
  slices_S1048576x5_S1048576x4_0_0 : S1048576x5.Slices ![0, 0] S1048576x4
  reducesTo_S1048576x4_S1048576_d1 : S1048576x4.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x4_0_1 : S1048576x1.BroadcastsInDim S1048576x4 (![0, 1] : Fin 2 → Fin S1048576x4.rank)
  concatenates_S1048576x4_S1048576x1_S1048576x5_d1 : Shape.Concatenates [S1048576x4, S1048576x1] S1048576x5 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S64x16384 : S1048576x1.ShapeCasts S64x16384
  gather_S24x4_S1048576x1_S1048576x4_1_0_n_n_0_1_14_wf : GatherDims.WF S24x4 S1048576x1 S1048576x4 [1] [0] [] [0] [] 1 ![1, 4]
  dot_S1048576x5_S5x64_S1048576x64_1_0_0_1_n_n_wf : DotDims.WF S1048576x5 S5x64 S1048576x64 [1] [0] [0] [1] [] []
  dot_S1048576x64_S64x32_S1048576x32_1_0_0_1_n_n_wf : DotDims.WF S1048576x64 S64x32 S1048576x32 [1] [0] [0] [1] [] []
  dot_S1048576x32_S32x1_S1048576x1_1_0_0_1_n_n_wf : DotDims.WF S1048576x32 S32x1 S1048576x1 [1] [0] [0] [1] [] []

variable [Facts₀]

def gather_S24x4_S1048576x1_S1048576x4_1_0_n_n_0_1_14 : GatherDims S24x4 S1048576x1 S1048576x4 where
  offsetDims := [1]
  collapsedSliceDims := [0]
  operandBatchingDims := []
  startIndicesBatchingDims := []
  startIndexMap := [0]
  indexVectorDim := 1
  sliceSizes := ![1, 4]
  wf := gather_S24x4_S1048576x1_S1048576x4_1_0_n_n_0_1_14_wf
def dot_S1048576x5_S5x64_S1048576x64_1_0_0_1_n_n : DotDims S1048576x5 S5x64 S1048576x64 where
  lhsContracting := [1]
  rhsContracting := [0]
  lhsNonContracting := [0]
  rhsNonContracting := [1]
  lhsBatch := []
  rhsBatch := []
  wf := dot_S1048576x5_S5x64_S1048576x64_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf

class Facts : Prop extends Facts₀ where

variable [Facts]
-- ==== Proof.TokenSpec.lean ====
/-
  One token of the router, as a function on the extended reals.

  A token is a row of five numbers: four features `a 0 … a 3` and a position `p`. The four features are
  layer-normalised (mean and biased variance over the four, the variance shifted by a small positive constant);
  the position, scaled by the number of layers, truncated to an integer and clipped into `[0, 23]`, names one of
  24 rows of a scale table and a shift table; the normalised features are scaled and shifted by that row, the
  position is appended, and the five numbers go through three dense layers (5 → 64 → 32 → 1) with a rectifier after
  the first two.

  Two spellings of the normalisation meet here: the product with the reciprocal square root, and the quotient by
  the square root. On the extended reals they agree whenever the shifted variance is positive or `+∞`, and it always
  is: a square is never negative (`(±∞)·(±∞) = +∞`), so neither is a sum of squares or its quarter, and the shift is a
  positive real. No finiteness of the inputs is used.

  Two spellings of "the row the position names" meet here too: a sum over the 24 rows against the indicator of the
  row's number (the row itself survives, every other term is a product with zero), and the row read directly.
-/
import Idealize.ShloMosaic.PureOps.Ideal.Laws
import Idealize.ShloMosaic.Lib.ValueIdx
import Idealize.ShloMosaic.Lib.WordArith
import Idealize.ShloMosaic.Lib.Affine

noncomputable section

namespace Cert.Router

open Idealize.ShloMosaic

/-! ## The float constants, as the words both programs print -/

/-- `4.0`: the number of features, the divisor of both means. -/
abbrev kFour : EReal := Ideal.ofBits .f32 0x40800000#32
/-- The variance's shift (the single-precision number nearest `1e-5`). -/
abbrev kEps : EReal := Ideal.ofBits .f32 0x3727C5AC#32
/-- `24.0`: the number of layers, the position's scale. -/
abbrev kLayers : EReal := Ideal.ofBits .f32 0x41C00000#32
/-- `+0.0`: the rectifier's floor. -/
abbrev kZero : EReal := Ideal.ofBits .f32 0x00000000#32

theorem kFour_eq : kFour = ((4 : ℝ) : EReal) := by
  show Ideal.ofBits .f32 0x40800000#32 = _
  simp [Ideal.ofBits, Ideal.ieee, -EReal.coe_mul]; norm_num

theorem kEps_pos : 0 < kEps := by
  show (0 : EReal) < Ideal.ofBits .f32 0x3727C5AC#32
  simp [Ideal.ofBits, Ideal.ieee, -EReal.coe_mul]

/-! ## Layer normalisation of the four features -/

/-- The mean of the four features. -/
def mean4 (a : Fin 4 → EReal) : EReal := Ideal.div (∑ k, a k) kFour
/-- A feature less the mean. -/
def centred (a : Fin 4 → EReal) (f : Fin 4) : EReal := a f - mean4 a
/-- The biased variance of the four features, shifted by the small positive constant. -/
def spread (a : Fin 4 → EReal) : EReal := Ideal.div (∑ k, centred a k * centred a k) kFour + kEps

/-- A square is never negative on the extended reals, at the infinities too. -/
theorem mul_self_nonneg (c : EReal) : 0 ≤ c * c := by
  rw [EReal.mul_nonneg_iff]
  rcases le_total 0 c with h | h
  · exact Or.inl ⟨h, h⟩
  · exact Or.inr ⟨h, h⟩

/-- A quarter of a non-negative number is non-negative. -/
theorem div_four_nonneg {x : EReal} (hx : 0 ≤ x) : 0 ≤ Ideal.div x kFour := by
  rw [kFour_eq, Ideal.div_coe (by norm_num : (4 : ℝ) ≠ 0)]
  exact EReal.mul_nonneg hx (by exact_mod_cast (by norm_num : (0 : ℝ) ≤ 1 / 4))

/-- The shifted variance is positive, whatever the features are. -/
theorem spread_pos (a : Fin 4 → EReal) : 0 < spread a := by
  have h1 : 0 ≤ ∑ k, centred a k * centred a k := Finset.sum_nonneg fun k _ => mul_self_nonneg _
  exact lt_of_lt_of_le kEps_pos (le_add_of_nonneg_left (div_four_nonneg h1))

/-- THE NORMALISATION LAW: against a positive (possibly infinite) `v`, the product with the reciprocal square root is
    the quotient by the square root. At a positive real both are `c · (√v)⁻¹`; at `+∞` both are `c · 0`. -/
theorem mul_rsqrt_eq_div_sqrt (c : EReal) {v : EReal} (hv : 0 < v) :
    c * Ideal.rsqrt v = Ideal.div c (Ideal.sqrt v) := by
  induction v using EReal.rec with
  | bot => exact absurd hv (by simp)
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]
  | top =>
    rw [Ideal.rsqrt_top, Ideal.sqrt_top, Ideal.div, if_neg (by simp), EReal.inv_top]

/-! ## The row of the tables that the position names -/

/-- The position scaled by the number of layers, truncated toward zero (saturating), clipped into `[0, 23]`: a
    32-bit word. -/
def layerWord (p : EReal) : BitVec 32 :=
  IntOp.minsi 23#32 (IntOp.maxsi 0#32 (Ideal.fptosi 32 (p * kLayers)))

theorem layerWord_range (p : EReal) : 0 ≤ (layerWord p).toInt ∧ (layerWord p).toInt ≤ 23 := by
  unfold layerWord
  generalize Ideal.fptosi 32 (p * kLayers) = q
  have h0 : 0 ≤ (IntOp.maxsi 0#32 q).toInt := by rw [WordArith.toInt_maxsi_zero]; exact le_max_left _ _
  generalize IntOp.maxsi 0#32 q = m at h0
  have h23 : (23#32 : BitVec 32).toInt = 23 := by decide
  unfold IntOp.minsi
  by_cases h : (23#32 : BitVec 32).slt m = true
  · rw [if_pos h, h23]; omega
  · rw [if_neg h]
    rw [BitVec.slt_iff_toInt_lt, h23] at h
    omega

/-- The row's number. -/
def layerRow (p : EReal) : Fin 24 := ⟨(layerWord p).toInt.toNat, by have := layerWord_range p; omega⟩

/-- A word whose signed reading is in `[0, 23]` is the word of that number. -/
theorem word_of_small {w : BitVec 32} (h0 : 0 ≤ w.toInt) (h1 : w.toInt ≤ 23) : BitVec.ofNat 32 w.toInt.toNat = w := by
  apply BitVec.eq_of_toNat_eq
  have e := BitVec.toInt_eq_toNat_cond w
  have hw := w.isLt
  rw [BitVec.toNat_ofNat]
  split at e <;> omega

/-- THE SELECTION LAW: summing the rows against the indicator "this row's number is the word" (the comparison's bit,
    widened and read as a number) leaves the row the word names — every other term is a product with zero. -/
theorem onehot_sum (g : Fin 24 → EReal) (w : BitVec 32) (h0 : 0 ≤ w.toInt) (h1 : w.toInt ≤ 23) :
    ∑ l : Fin 24, g l * (((((IntOp.cmpi .eq (BitVec.ofNat 32 l.val) w).setWidth 32).toInt : ℝ)) : EReal)
      = g ⟨w.toInt.toNat, by omega⟩ := by
  have e1 : ((((1#1 : BitVec 1).setWidth 32).toInt : ℝ) : EReal) = 1 := by
    rw [show ((1#1 : BitVec 1).setWidth 32).toInt = 1 from by decide]; norm_num
  have e0 : ((((0#1 : BitVec 1).setWidth 32).toInt : ℝ) : EReal) = 0 := by
    rw [show ((0#1 : BitVec 1).setWidth 32).toInt = 0 from by decide]; norm_num
  rw [Finset.sum_eq_single (⟨w.toInt.toNat, by omega⟩ : Fin 24)]
  · rw [show IntOp.cmpi .eq (BitVec.ofNat 32 w.toInt.toNat) w = 1#1 from IntOp.cmpi_eq.mpr (word_of_small h0 h1), e1, mul_one]
  · intro l _ hl
    have hne : ¬IntOp.cmpi .eq (BitVec.ofNat 32 l.val) w = 1#1 := fun h => hl (Fin.ext (by
      have hw : BitVec.ofNat 32 l.val = w := IntOp.cmpi_eq.mp h
      have hl24 := l.isLt
      have : w.toNat = l.val := by rw [← hw, BitVec.toNat_ofNat]; omega
      have e := BitVec.toInt_eq_toNat_cond w
      show l.val = w.toInt.toNat
      split at e <;> omega))
    rw [ValueIdx.eq_zero_of_ne_one hne, e0, mul_zero]
  · intro h; exact absurd (Finset.mem_univ _) h

/-! ## The token -/

/-- Feature `f` normalised, scaled and shifted (the quotient spelling). -/
def normed (a : Fin 4 → EReal) (gam bet : Fin 4 → EReal) (f : Fin 4) : EReal :=
  Ideal.div (centred a f) (Ideal.sqrt (spread a)) * gam f + bet f

/-- The five inputs of the first dense layer: the four processed features, then the position. -/
def hidden0 (a : Fin 4 → EReal) (p : EReal) (gam bet : Fin 4 → EReal) (f : Fin 5) : EReal :=
  if h : f.val < 4 then normed a gam bet ⟨f.val, h⟩ else p

/-- The rectifier. -/
def relu (x : EReal) : EReal := max x kZero

/-- THE TOKEN'S OUTPUT, from its features `a`, its position `p`, the two 24-row tables and the three layers' weights
    and biases. -/
def tokenOut (a : Fin 4 → EReal) (p : EReal) (gam bet : Fin 24 → Fin 4 → EReal)
    (w1 : Fin 5 → Fin 64 → EReal) (c1 : Fin 64 → EReal) (w2 : Fin 64 → Fin 32 → EReal) (c2 : Fin 32 → EReal)
    (w3 : Fin 32 → EReal) (c3 : EReal) : EReal :=
  ∑ l : Fin 32, relu (∑ j : Fin 64, relu (∑ f : Fin 5, hidden0 a p (gam (layerRow p)) (bet (layerRow p)) f * w1 f j + c1 j)
    * w2 j l + c2 l) * w3 l + c3

end Cert.Router

end
-- ==== Proof.LibFeatureMajor.lean ====
/-
  Operations on matrices stored FEATURE-MAJOR — a small feature axis first, a long item axis second — read at an
  index written by coordinates. General: nothing here mentions a program; every extent is a variable.

  * a sum over the leading axis of `[a, b]`, from the neutral accumulator, at `y` is `Σ_k src (k, y)`;
  * a product with BOTH operands contracted on their leading axis, `[K, M] · [K, N] → [M, N]` (`lhsᵀ · rhs`), into the
    zero splat, at `(p, j)` is `Σ_k lhs (k, p) · rhs (k, j)`;
  * two pieces stacked along the leading axis, `[a, n]` over `[1, n]`, read at a row of the first piece or at the last row;
  * two pieces set side by side along the second axis, `[n, a]` beside `[n, b]`, read at a column of either.
-/
import Idealize.ShloMosaic.PureOps.Ideal.Laws
import Idealize.ShloMosaic.Lib.Pipeline.Value
import Idealize.ShloMosaic.Lib.ValueIdx

noncomputable section

namespace Cert.LibFeatureMajor

open Idealize.ShloMosaic Idealize.ShloMosaic.ValueIdx

variable {α : Type}

/-! ## A sum over the leading axis -/

/-- `Σ` over the leading axis of `[a, b]`, from the neutral accumulator, at `y`: `Σ_k src (k, y)`. -/
theorem colsum_at {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (y : Fin b) :
    multiReduction .add [0] ⟨1, ![b]⟩ src 0x00000000#32 h hφ hacc (ix1 y) = ∑ k : Fin a, src (ix2 k y) := by
  refine (Ideal.multiReduction_add_single src _ h hφ hacc (ix1 y)).trans ?_
  refine Finset.sum_congr rfl fun k _ => congrArg src (funext fun d => Fin.ext ?_)
  match d with
  | ⟨0, _⟩ => rfl
  | ⟨1, _⟩ => rfl

/-! ## A product contracted on both leading axes -/

/-- `[K, M] · [K, N]` contracted on the two leading axes, into the zero splat, at `(p, j)`: `Σ_k lhs (k, p) · rhs (k, j)`.
    The dimension numbers enter through four facts about where they send an output index and a contraction index. -/
theorem matmul_cols_zero_at {M K N : ℕ} {φ₁ φ₂ : FTy}
    (D : DotDims ⟨2, ![K, M]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (q ⟨0, by omega⟩).val)
    (hl1 : ∀ (i : (⟨2, ![M, N]⟩ : Shape).Idx) (q : D.contr.Idx), (D.lhsIdx i q 1).val = (i 0).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![K, M]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 k p) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 k p := funext fun a => Fin.ext (by
    match a with
    | ⟨0, _⟩ => exact (hl0 _ _).trans hk
    | ⟨1, _⟩ => exact hl1 _ _)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-! ## One more row under a block of rows -/

/-- `[a, n]` stacked over `[1, n]`: a row of the first piece. -/
theorem stack_row_upper {a c n : ℕ} (x₁ : (⟨2, ![a, n]⟩ : Shape).Idx → α) (x₂ : (⟨2, ![1, n]⟩ : Shape).Idx → α)
    (h : Shape.Concatenates [⟨2, ![a, n]⟩, ⟨2, ![1, n]⟩] ⟨2, ![c, n]⟩ 0) (k : Fin c) (hk : k.val < a) (y : Fin n) :
    concatenate ⟨2, ![c, n]⟩ 0 [⟨⟨2, ![a, n]⟩, x₁⟩, ⟨⟨2, ![1, n]⟩, x₂⟩] h (ix2 k y) = x₁ (ix2 ⟨k.val, hk⟩ y) :=
  concatenate_pair_apply_left 0 x₁ x₂ h (ix2 k y) rfl (ix2 ⟨k.val, hk⟩ y) fun b => by
    match b with
    | ⟨0, _⟩ => rfl
    | ⟨1, _⟩ => rfl

/-- `[a, n]` stacked over `[1, n]`: the last row is the second piece's one row. -/
theorem stack_row_last {a c n : ℕ} (x₁ : (⟨2, ![a, n]⟩ : Shape).Idx → α) (x₂ : (⟨2, ![1, n]⟩ : Shape).Idx → α)
    (h : Shape.Concatenates [⟨2, ![a, n]⟩, ⟨2, ![1, n]⟩] ⟨2, ![c, n]⟩ 0) (k : Fin c) (hk : k.val = a) (y : Fin n) :
    concatenate ⟨2, ![c, n]⟩ 0 [⟨⟨2, ![a, n]⟩, x₁⟩, ⟨⟨2, ![1, n]⟩, x₂⟩] h (ix2 k y) = x₂ (ix2 (0 : Fin 1) y) :=
  concatenate_pair_apply_right 0 x₁ x₂ h (ix2 k y) rfl rfl (ix2 (0 : Fin 1) y)
    (fun b hb => by
      match b with
      | ⟨0, _⟩ => exact absurd rfl hb
      | ⟨1, _⟩ => rfl)
    (by show 0 + a = k.val; omega)

/-! ## Two blocks of columns side by side -/

/-- `[n, a]` beside `[n, b]`: a column of the first piece. -/
theorem beside_col_left {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (p : Fin n) (k : Fin c) (hk : k.val < a) :
    concatenate ⟨2, ![n, c]⟩ 1 [⟨⟨2, ![n, a]⟩, x₁⟩, ⟨⟨2, ![n, b]⟩, x₂⟩] h (ix2 p k) = x₁ (ix2 p ⟨k.val, hk⟩) :=
  concatenate_pair_apply_left 1 x₁ x₂ h (ix2 p k) rfl (ix2 p ⟨k.val, hk⟩) fun d => by
    match d with
    | ⟨0, _⟩ => rfl
    | ⟨1, _⟩ => rfl

/-- `[n, a]` beside `[n, b]`: a column of the second piece, the first piece's width less. -/
theorem beside_col_right {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (p : Fin n) (k : Fin c) (k' : Fin b)
    (hk : k'.val + a = k.val) :
    concatenate ⟨2, ![n, c]⟩ 1 [⟨⟨2, ![n, a]⟩, x₁⟩, ⟨⟨2, ![n, b]⟩, x₂⟩] h (ix2 p k) = x₂ (ix2 p k') :=
  concatenate_pair_apply_right 1 x₁ x₂ h (ix2 p k) rfl rfl (ix2 p k')
    (fun d hd => by
      match d with
      | ⟨0, _⟩ => rfl
      | ⟨1, _⟩ => exact absurd rfl hd)
    hk

end Cert.LibFeatureMajor

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelToken.lean ====
/-
  What the kernel's body computes for ONE token of its block.

  The body loads a block of 16384 tokens (rows of five numbers), lays it out feature-major (five rows of 16384), and
  from then on every operation acts column by column: column `y` of every intermediate depends on row `y` of the block
  only. This module names the body's stages — the transposed block, its first four rows (the features) and its fifth
  (the position), the row of means, the centred and the normalised rows, the row of layer words, the rows picked
  out of the scale-and-shift table by a product with the layer indicator, the five rows entering the dense layers,
  and the three dense layers — shows that the printed body IS their composition, and reads each stage at a column.
  Put together: entry `y` of the stored vector is the token function of row `y` of the block, of the table block
  (scale in columns 0–3, shift in columns 4–7) and of the weight blocks.

  Three laws join the body's spelling to the token function's: the product with the reciprocal square root is the
  quotient by the square root (the shifted variance being positive); the sum over the 24 table rows against the
  layer indicator is the row the layer word names; and a weight times an activation is the activation times the
  weight.
-/
import proofs.«132715_j64175401337509_2_alg».proof.Proof.Gen.KernelIdeal.Skeleton
import proofs.«132715_j64175401337509_2_alg».proof.Proof.TokenSpec
import proofs.«132715_j64175401337509_2_alg».proof.Proof.LibFeatureMajor
import proofs.«132715_j64175401337509_2_alg».proof.Proof.LibKeepdims
import Idealize.ShloMosaic.Lib.ValueLayout
import Idealize.ShloMosaic.Lib.Pipeline.Value

noncomputable section

namespace Cert.KernelIdeal.Token

open Cert.KernelIdeal Cert.KernelIdeal.Gen Idealize.ShloMosaic Idealize.ShloMosaic.ValueIdx Cert.Router

/-! ## The stages -/

/-- The block with the feature axis first. -/
def featMajor (x0 : Vec Ideal S16384x5 .f32) : FVec Ideal S5x16384 .f32 :=
  transpose S5x16384 [1, 0] (shapeCast S16384x5 x0 shapeCasts_S16384x5_S16384x5) transposes_S16384x5_p1_0_S5x16384
/-- Its first four rows: the features. -/
def feats (x0 : Vec Ideal S16384x5 .f32) : FVec Ideal S4x16384 .f32 :=
  extractStridedSlice S4x16384 ![0, 0] (featMajor x0) slices_S5x16384_o0_0_S4x16384
/-- Its fifth row: the positions. -/
def posRow (x0 : Vec Ideal S16384x5 .f32) : FVec Ideal S1x16384 .f32 :=
  extractStridedSlice S1x16384 ![4, 0] (featMajor x0) slices_S5x16384_o4_0_S1x16384
/-- The row of column means of four rows. -/
def meanRow (X : FVec Ideal S4x16384 .f32) : FVec Ideal S1x16384 .f32 :=
  divf (shapeCast S1x16384 (multiReduction .add [0] S16384 X 0x00000000#32 reduces_S4x16384_S16384 (.inl rfl) rfl) shapeCasts_S16384_S1x16384)
    (broadcast S1x16384 (Scalar.ofBits .f32 0x40800000#32))
/-- Four rows less their column means. -/
def centredRows (X : FVec Ideal S4x16384 .f32) : FVec Ideal S4x16384 .f32 :=
  subf X (broadcastTo S4x16384 (meanRow X) broadcasts_S1x16384_S4x16384)
/-- Four rows normalised column by column (the reciprocal-square-root spelling). -/
def lnRows (X : FVec Ideal S4x16384 .f32) : FVec Ideal S4x16384 .f32 :=
  mulf (centredRows X) (broadcastTo S4x16384 (rsqrt (addf (meanRow (mulf (centredRows X) (centredRows X)))
    (broadcast S1x16384 (Scalar.ofBits .f32 0x3727C5AC#32)))) broadcasts_S1x16384_S4x16384)
/-- The row of layer words of a row of positions. -/
def wordRow (P : FVec Ideal S1x16384 .f32) : IVec S1x16384 32 :=
  minsi (broadcast S1x16384 23#32) (maxsi (broadcast S1x16384 0#32) (fptosi 32 (mulf P (broadcast S1x16384 (Scalar.ofBits .f32 0x41C00000#32)))))
/-- The table's columns picked per token: the table (transposed) times the layer indicator. -/
def tableRows (W : IVec S1x16384 32) (x1 : Vec Ideal S24x8 .f32) : FVec Ideal S8x16384 .f32 :=
  matmul dot_S24x8_S24x16384_S8x16384_0_0_1_1_n_n none (truncf .bf16 (shapeCast S24x8 x1 shapeCasts_S24x8_S24x8) bitsLt_bf16_f32)
    (truncf .bf16 (sitofp .f32 (extui 32 (cmpi .eq (iota .tc S24x16384 32 [0] iota_S24x16384_d0_w32)
      (broadcastTo S24x16384 W broadcasts_S1x16384_S24x16384)) natLt_1_32)) bitsLt_bf16_f32)
    (constant S8x16384 .f32 0x00000000#32)
/-- The five rows entering the dense layers: the normalised features scaled and shifted, then the positions. -/
def hiddenRows (x0 : Vec Ideal S16384x5 .f32) (x1 : Vec Ideal S24x8 .f32) : FVec Ideal S5x16384 .f32 :=
  concatenate S5x16384 0 [⟨S4x16384, addf (mulf (lnRows (feats x0))
      (extractStridedSlice S4x16384 ![0, 0] (tableRows (wordRow (posRow x0)) x1) slices_S8x16384_o0_0_S4x16384))
      (extractStridedSlice S4x16384 ![4, 0] (tableRows (wordRow (posRow x0)) x1) slices_S8x16384_o4_0_S4x16384)⟩,
    ⟨S1x16384, posRow x0⟩] concatenates_S4x16384_S1x16384_S5x16384_d0

/-- The first payload IS the five rows (narrowed to the matrix unit's format, which changes nothing here). -/
theorem pay2_eq (x0 : Vec Ideal S16384x5 .f32) (x1 : Vec Ideal S24x8 .f32) :
    k0_pay2 (F := Ideal) x0 x1 = truncf .bf16 (hiddenRows x0 x1) bitsLt_bf16_f32 := rfl

/-- The first dense layer, rectified. -/
def dense1 (H : FVec Ideal S5x16384 .bf16) (x2 : Vec Ideal S5x64 .f32) (x3 : Vec Ideal S64x1 .f32) : FVec Ideal S64x16384 .bf16 :=
  truncf .bf16 (maximumf (addf (matmul dot_S5x64_S5x16384_S64x16384_0_0_1_1_n_n none (truncf .bf16 x2 bitsLt_bf16_f32) H (constant S64x16384 .f32 0x00000000#32))
    (broadcastTo S64x16384 (shapeCast S64x1 x3 shapeCasts_S64x1_S64x1) broadcasts_S64x1_S64x16384))
    (broadcast S64x16384 (Scalar.ofBits .f32 0x00000000#32))) bitsLt_bf16_f32
/-- The second dense layer, rectified. -/
def dense2 (H : FVec Ideal S64x16384 .bf16) (x4 : Vec Ideal S64x32 .f32) (x5 : Vec Ideal S32x1 .f32) : FVec Ideal S32x16384 .bf16 :=
  truncf .bf16 (maximumf (addf (matmul dot_S64x32_S64x16384_S32x16384_0_0_1_1_n_n none (truncf .bf16 x4 bitsLt_bf16_f32) H (constant S32x16384 .f32 0x00000000#32))
    (broadcastTo S32x16384 (shapeCast S32x1 x5 shapeCasts_S32x1_S32x1) broadcasts_S32x1_S32x16384))
    (broadcast S32x16384 (Scalar.ofBits .f32 0x00000000#32))) bitsLt_bf16_f32
/-- The third dense layer, as a vector. -/
def dense3 (H : FVec Ideal S32x16384 .bf16) (x6 : Vec Ideal S32x1 .f32) (x7 : Vec Ideal S1x1 .f32) : FVec Ideal S16384 .f32 :=
  shapeCast S16384 (addf (matmul dot_S32x1_S32x16384_S1x16384_0_0_1_1_n_n none (truncf .bf16 x6 bitsLt_bf16_f32) H (constant S1x16384 .f32 0x00000000#32))
    (broadcastTo S1x16384 (shapeCast S1x1 x7 shapeCasts_S1x1_S1x1) broadcasts_S1x1_S1x16384)) shapeCasts_S1x16384_S16384

/-- The second payload IS the three dense layers. -/
theorem pay1_eq (v43 : FVec Ideal S5x16384 .bf16) (x2 : Vec Ideal S5x64 .f32) (x3 : Vec Ideal S64x1 .f32) (x4 : Vec Ideal S64x32 .f32)
    (x5 : Vec Ideal S32x1 .f32) (x6 : Vec Ideal S32x1 .f32) (x7 : Vec Ideal S1x1 .f32) :
    k0_pay1 (F := Ideal) v43 x2 x3 x4 x5 x6 x7 = dense3 (dense2 (dense1 v43 x2 x3) x4 x5) x6 x7 := rfl

/-! ## The stages read at a column -/

/-- Row `f`, column `y` of the transposed block is row `y`, column `f` of the block. -/
theorem featMajor_at (x0 : Vec Ideal S16384x5 .f32) (f : Fin 5) (y : Fin 16384) :
    featMajor x0 (ix2 f y) = x0 (ix2 y f) := by
  unfold featMajor
  rw [shapeCast_self]
  exact transpose_ix2_apply x0 _ f y

theorem feats_at (x0 : Vec Ideal S16384x5 .f32) (k : Fin 4) (y : Fin 16384) :
    feats x0 (ix2 k y) = x0 (ix2 y k.castSucc) := by
  unfold feats
  exact (slice2_axis0_apply 0 (featMajor x0) _ k y k.castSucc (by show k.val = 0 + k.val; omega)).trans (featMajor_at x0 _ y)

theorem posRow_at (x0 : Vec Ideal S16384x5 .f32) (u : Fin 1) (y : Fin 16384) :
    posRow x0 (ix2 u y) = x0 (ix2 y (4 : Fin 5)) := by
  unfold posRow
  exact (slice2_axis0_apply 4 (featMajor x0) _ u y (4 : Fin 5) (by show 4 = 4 + u.val; omega)).trans (featMajor_at x0 _ y)

/-- The mean row at column `y` is the mean of the four entries of that column. -/
theorem meanRow_at (X : FVec Ideal S4x16384 .f32) (u : Fin 1) (y : Fin 16384) :
    meanRow X (ix2 u y) = mean4 fun k => X (ix2 k y) := by
  unfold meanRow mean4
  exact congrArg (fun z => Ideal.div z kFour)
    ((shapeCast_a_1a_apply _ _ u y).trans (Cert.LibFeatureMajor.colsum_at X _ _ _ y))

theorem centredRows_at (X : FVec Ideal S4x16384 .f32) (k : Fin 4) (y : Fin 16384) :
    centredRows X (ix2 k y) = centred (fun k' => X (ix2 k' y)) k := by
  unfold centredRows centred
  exact congrArg (fun z => X (ix2 k y) - z) ((broadcastTo_1b_ab_apply _ _ k y).trans (meanRow_at X 0 y))

/-- The normalised rows at `(k, y)`: the centred entry times the reciprocal square root of the column's shifted variance. -/
theorem lnRows_at (X : FVec Ideal S4x16384 .f32) (k : Fin 4) (y : Fin 16384) :
    lnRows X (ix2 k y) = centred (fun k' => X (ix2 k' y)) k * Ideal.rsqrt (spread fun k' => X (ix2 k' y)) := by
  unfold lnRows
  show centredRows X (ix2 k y) * broadcastTo S4x16384 _ _ (ix2 k y) = _
  rw [centredRows_at, broadcastTo_1b_ab_apply]
  show _ * Ideal.rsqrt (meanRow _ (ix2 0 y) + kEps) = _
  rw [meanRow_at]
  have e : (fun k' : Fin 4 => mulf (centredRows X) (centredRows X) (ix2 k' y))
      = fun k' => centred (fun k'' => X (ix2 k'' y)) k' * centred (fun k'' => X (ix2 k'' y)) k' := by
    funext k'
    show centredRows X (ix2 k' y) * centredRows X (ix2 k' y) = _
    rw [centredRows_at]
  rw [e]
  rfl

/-- The layer word of a column is the layer word of its position: every step is entry by entry. -/
theorem wordRow_at (P : FVec Ideal S1x16384 .f32) (u : Fin 1) (y : Fin 16384) :
    wordRow P (ix2 u y) = layerWord (P (ix2 u y)) := rfl

/-! ## Where the four products' dimension numbers send an output index and a contraction index

Each product contracts the leading axis of both operands; the left operand's second axis is the result's first, the
right operand's second axis the result's second. -/

/-- the table pick (24 rows contracted). -/
theorem dotTab_l0 (i : S8x16384.Idx) (q : dot_S24x8_S24x16384_S8x16384_0_0_1_1_n_n.contr.Idx) :
    (dot_S24x8_S24x16384_S8x16384_0_0_1_1_n_n.lhsIdx i q 0).val = (q ⟨0, by decide⟩).val :=
  dot_S24x8_S24x16384_S8x16384_0_0_1_1_n_n.lhsIdx_val_of_single rfl i q
theorem dotTab_l1 (i : S8x16384.Idx) (q : dot_S24x8_S24x16384_S8x16384_0_0_1_1_n_n.contr.Idx) :
    (dot_S24x8_S24x16384_S8x16384_0_0_1_1_n_n.lhsIdx i q 1).val = (i 0).val := by
  unfold DotDims.lhsIdx
  rw [dif_neg (show ¬(1 : Fin S24x8.rank) ∈ dot_S24x8_S24x16384_S8x16384_0_0_1_1_n_n.lhsBatch by decide), dif_pos (show (1 : Fin S24x8.rank) ∈ dot_S24x8_S24x16384_S8x16384_0_0_1_1_n_n.lhsNonContracting by decide)]
  rfl
theorem dotTab_r0 (i : S8x16384.Idx) (q : dot_S24x8_S24x16384_S8x16384_0_0_1_1_n_n.contr.Idx) :
    (dot_S24x8_S24x16384_S8x16384_0_0_1_1_n_n.rhsIdx i q 0).val = (q ⟨0, by decide⟩).val :=
  dot_S24x8_S24x16384_S8x16384_0_0_1_1_n_n.rhsIdx_val_of_single rfl i q
theorem dotTab_r1 (i : S8x16384.Idx) (q : dot_S24x8_S24x16384_S8x16384_0_0_1_1_n_n.contr.Idx) :
    (dot_S24x8_S24x16384_S8x16384_0_0_1_1_n_n.rhsIdx i q 1).val = (i 1).val := by
  unfold DotDims.rhsIdx
  rw [dif_neg (show ¬(1 : Fin S24x16384.rank) ∈ dot_S24x8_S24x16384_S8x16384_0_0_1_1_n_n.rhsBatch by decide), dif_pos (show (1 : Fin S24x16384.rank) ∈ dot_S24x8_S24x16384_S8x16384_0_0_1_1_n_n.rhsNonContracting by decide)]
  rfl

/-- the first dense layer (5 inputs contracted). -/
theorem dotL1_l0 (i : S64x16384.Idx) (q : dot_S5x64_S5x16384_S64x16384_0_0_1_1_n_n.contr.Idx) :
    (dot_S5x64_S5x16384_S64x16384_0_0_1_1_n_n.lhsIdx i q 0).val = (q ⟨0, by decide⟩).val :=
  dot_S5x64_S5x16384_S64x16384_0_0_1_1_n_n.lhsIdx_val_of_single rfl i q
theorem dotL1_l1 (i : S64x16384.Idx) (q : dot_S5x64_S5x16384_S64x16384_0_0_1_1_n_n.contr.Idx) :
    (dot_S5x64_S5x16384_S64x16384_0_0_1_1_n_n.lhsIdx i q 1).val = (i 0).val := by
  unfold DotDims.lhsIdx
  rw [dif_neg (show ¬(1 : Fin S5x64.rank) ∈ dot_S5x64_S5x16384_S64x16384_0_0_1_1_n_n.lhsBatch by decide), dif_pos (show (1 : Fin S5x64.rank) ∈ dot_S5x64_S5x16384_S64x16384_0_0_1_1_n_n.lhsNonContracting by decide)]
  rfl
theorem dotL1_r0 (i : S64x16384.Idx) (q : dot_S5x64_S5x16384_S64x16384_0_0_1_1_n_n.contr.Idx) :
    (dot_S5x64_S5x16384_S64x16384_0_0_1_1_n_n.rhsIdx i q 0).val = (q ⟨0, by decide⟩).val :=
  dot_S5x64_S5x16384_S64x16384_0_0_1_1_n_n.rhsIdx_val_of_single rfl i q
theorem dotL1_r1 (i : S64x16384.Idx) (q : dot_S5x64_S5x16384_S64x16384_0_0_1_1_n_n.contr.Idx) :
    (dot_S5x64_S5x16384_S64x16384_0_0_1_1_n_n.rhsIdx i q 1).val = (i 1).val := by
  unfold DotDims.rhsIdx
  rw [dif_neg (show ¬(1 : Fin S5x16384.rank) ∈ dot_S5x64_S5x16384_S64x16384_0_0_1_1_n_n.rhsBatch by decide), dif_pos (show (1 : Fin S5x16384.rank) ∈ dot_S5x64_S5x16384_S64x16384_0_0_1_1_n_n.rhsNonContracting by decide)]
  rfl

/-- the second dense layer (64 inputs contracted). -/
theorem dotL2_l0 (i : S32x16384.Idx) (q : dot_S64x32_S64x16384_S32x16384_0_0_1_1_n_n.contr.Idx) :
    (dot_S64x32_S64x16384_S32x16384_0_0_1_1_n_n.lhsIdx i q 0).val = (q ⟨0, by decide⟩).val :=
  dot_S64x32_S64x16384_S32x16384_0_0_1_1_n_n.lhsIdx_val_of_single rfl i q
theorem dotL2_l1 (i : S32x16384.Idx) (q : dot_S64x32_S64x16384_S32x16384_0_0_1_1_n_n.contr.Idx) :
    (dot_S64x32_S64x16384_S32x16384_0_0_1_1_n_n.lhsIdx i q 1).val = (i 0).val := by
  unfold DotDims.lhsIdx
  rw [dif_neg (show ¬(1 : Fin S64x32.rank) ∈ dot_S64x32_S64x16384_S32x16384_0_0_1_1_n_n.lhsBatch by decide), dif_pos (show (1 : Fin S64x32.rank) ∈ dot_S64x32_S64x16384_S32x16384_0_0_1_1_n_n.lhsNonContracting by decide)]
  rfl
theorem dotL2_r0 (i : S32x16384.Idx) (q : dot_S64x32_S64x16384_S32x16384_0_0_1_1_n_n.contr.Idx) :
    (dot_S64x32_S64x16384_S32x16384_0_0_1_1_n_n.rhsIdx i q 0).val = (q ⟨0, by decide⟩).val :=
  dot_S64x32_S64x16384_S32x16384_0_0_1_1_n_n.rhsIdx_val_of_single rfl i q
theorem dotL2_r1 (i : S32x16384.Idx) (q : dot_S64x32_S64x16384_S32x16384_0_0_1_1_n_n.contr.Idx) :
    (dot_S64x32_S64x16384_S32x16384_0_0_1_1_n_n.rhsIdx i q 1).val = (i 1).val := by
  unfold DotDims.rhsIdx
  rw [dif_neg (show ¬(1 : Fin S64x16384.rank) ∈ dot_S64x32_S64x16384_S32x16384_0_0_1_1_n_n.rhsBatch by decide), dif_pos (show (1 : Fin S64x16384.rank) ∈ dot_S64x32_S64x16384_S32x16384_0_0_1_1_n_n.rhsNonContracting by decide)]
  rfl

/-- the third dense layer (32 inputs contracted). -/
theorem dotL3_l0 (i : S1x16384.Idx) (q : dot_S32x1_S32x16384_S1x16384_0_0_1_1_n_n.contr.Idx) :
    (dot_S32x1_S32x16384_S1x16384_0_0_1_1_n_n.lhsIdx i q 0).val = (q ⟨0, by decide⟩).val :=
  dot_S32x1_S32x16384_S1x16384_0_0_1_1_n_n.lhsIdx_val_of_single rfl i q
theorem dotL3_l1 (i : S1x16384.Idx) (q : dot_S32x1_S32x16384_S1x16384_0_0_1_1_n_n.contr.Idx) :
    (dot_S32x1_S32x16384_S1x16384_0_0_1_1_n_n.lhsIdx i q 1).val = (i 0).val := by
  unfold DotDims.lhsIdx
  rw [dif_neg (show ¬(1 : Fin S32x1.rank) ∈ dot_S32x1_S32x16384_S1x16384_0_0_1_1_n_n.lhsBatch by decide), dif_pos (show (1 : Fin S32x1.rank) ∈ dot_S32x1_S32x16384_S1x16384_0_0_1_1_n_n.lhsNonContracting by decide)]
  rfl
theorem dotL3_r0 (i : S1x16384.Idx) (q : dot_S32x1_S32x16384_S1x16384_0_0_1_1_n_n.contr.Idx) :
    (dot_S32x1_S32x16384_S1x16384_0_0_1_1_n_n.rhsIdx i q 0).val = (q ⟨0, by decide⟩).val :=
  dot_S32x1_S32x16384_S1x16384_0_0_1_1_n_n.rhsIdx_val_of_single rfl i q
theorem dotL3_r1 (i : S1x16384.Idx) (q : dot_S32x1_S32x16384_S1x16384_0_0_1_1_n_n.contr.Idx) :
    (dot_S32x1_S32x16384_S1x16384_0_0_1_1_n_n.rhsIdx i q 1).val = (i 1).val := by
  unfold DotDims.rhsIdx
  rw [dif_neg (show ¬(1 : Fin S32x16384.rank) ∈ dot_S32x1_S32x16384_S1x16384_0_0_1_1_n_n.rhsBatch by decide), dif_pos (show (1 : Fin S32x16384.rank) ∈ dot_S32x1_S32x16384_S1x16384_0_0_1_1_n_n.rhsNonContracting by decide)]
  rfl

/-! ## The table pick, the dense layers and the five rows at a column -/

/-- THE TABLE PICK at `(f, y)`: column `f` of the table row that column `y`'s layer word names, when that word reads
    as a number in `[0, 23]` — the product sums the 24 rows against the indicator of the word. -/
theorem tableRows_at (W : IVec S1x16384 32) (x1 : Vec Ideal S24x8 .f32) (f : Fin 8) (y : Fin 16384)
    (h0 : 0 ≤ (W (ix2 (0 : Fin 1) y)).toInt) (h1 : (W (ix2 (0 : Fin 1) y)).toInt ≤ 23) :
    tableRows W x1 (ix2 f y) = x1 (ix2 (⟨(W (ix2 (0 : Fin 1) y)).toInt.toNat, by omega⟩ : Fin 24) f) := by
  unfold tableRows
  simp only [matmul]
  rw [Cert.LibFeatureMajor.matmul_cols_zero_at dot_S24x8_S24x16384_S8x16384_0_0_1_1_n_n none rfl rfl dotTab_l0 dotTab_l1 dotTab_r0 dotTab_r1]
  rw [← onehot_sum (fun l => x1 (ix2 l f)) (W (ix2 (0 : Fin 1) y)) h0 h1]
  refine Finset.sum_congr rfl fun l _ => ?_
  rw [shapeCast_self]
  show x1 (ix2 l f) * (((IntOp.cmpi .eq (iota .tc S24x16384 32 [0] iota_S24x16384_d0_w32 (ix2 l y))
    (broadcastTo S24x16384 W broadcasts_S1x16384_S24x16384 (ix2 l y))).setWidth 32).toInt : ℝ) = _
  rw [iota_single_apply, broadcastTo_1b_ab_apply]

/-- The first dense layer at `(j, y)`. -/
theorem dense1_at (H : FVec Ideal S5x16384 .bf16) (x2 : Vec Ideal S5x64 .f32) (x3 : Vec Ideal S64x1 .f32) (j : Fin 64) (y : Fin 16384) :
    dense1 H x2 x3 (ix2 j y) = relu (∑ f : Fin 5, H (ix2 f y) * x2 (ix2 f j) + x3 (ix2 j (0 : Fin 1))) := by
  unfold dense1 relu
  simp only [matmul]
  show max (FloatOps.matmul _ _ _ _ _ (ix2 j y) + broadcastTo S64x16384 _ _ (ix2 j y)) kZero = _
  rw [Cert.LibFeatureMajor.matmul_cols_zero_at dot_S5x64_S5x16384_S64x16384_0_0_1_1_n_n none rfl rfl dotL1_l0 dotL1_l1 dotL1_r0 dotL1_r1,
    Cert.Keepdims.broadcastTo_a1_ab_apply, shapeCast_self]
  congr 2
  exact Finset.sum_congr rfl fun f _ => mul_comm _ _

/-- The second dense layer at `(l, y)`. -/
theorem dense2_at (H : FVec Ideal S64x16384 .bf16) (x4 : Vec Ideal S64x32 .f32) (x5 : Vec Ideal S32x1 .f32) (l : Fin 32) (y : Fin 16384) :
    dense2 H x4 x5 (ix2 l y) = relu (∑ j : Fin 64, H (ix2 j y) * x4 (ix2 j l) + x5 (ix2 l (0 : Fin 1))) := by
  unfold dense2 relu
  simp only [matmul]
  show max (FloatOps.matmul _ _ _ _ _ (ix2 l y) + broadcastTo S32x16384 _ _ (ix2 l y)) kZero = _
  rw [Cert.LibFeatureMajor.matmul_cols_zero_at dot_S64x32_S64x16384_S32x16384_0_0_1_1_n_n none rfl rfl dotL2_l0 dotL2_l1 dotL2_r0 dotL2_r1,
    Cert.Keepdims.broadcastTo_a1_ab_apply, shapeCast_self]
  congr 2
  exact Finset.sum_congr rfl fun j _ => mul_comm _ _

/-- The third dense layer at `y`. -/
theorem dense3_at (H : FVec Ideal S32x16384 .bf16) (x6 : Vec Ideal S32x1 .f32) (x7 : Vec Ideal S1x1 .f32) (y : Fin 16384) :
    dense3 H x6 x7 (ix1 y) = ∑ l : Fin 32, H (ix2 l y) * x6 (ix2 l (0 : Fin 1)) + x7 (ix2 (0 : Fin 1) (0 : Fin 1)) := by
  unfold dense3
  simp only [matmul]
  rw [shapeCast_1a_a_apply]
  show FloatOps.matmul _ _ _ _ _ (ix2 (0 : Fin 1) y) + broadcastTo S1x16384 _ _ (ix2 (0 : Fin 1) y) = _
  rw [Cert.LibFeatureMajor.matmul_cols_zero_at dot_S32x1_S32x16384_S1x16384_0_0_1_1_n_n none rfl rfl dotL3_l0 dotL3_l1 dotL3_r0 dotL3_r1,
    Cert.Keepdims.broadcastTo_a1_ab_apply, shapeCast_self]
  congr 1
  exact Finset.sum_congr rfl fun l _ => mul_comm _ _

/-- THE FIVE ROWS at `(f, y)`: the token function's first-layer input `f`, of row `y` of the block and of the table
    row its position names (scale in the table's columns 0–3, shift in columns 4–7). -/
theorem hiddenRows_at (x0 : Vec Ideal S16384x5 .f32) (x1 : Vec Ideal S24x8 .f32) (f : Fin 5) (y : Fin 16384) :
    hiddenRows x0 x1 (ix2 f y)
      = hidden0 (fun k => x0 (ix2 y k.castSucc)) (x0 (ix2 y (4 : Fin 5)))
          (fun k => x1 (ix2 (layerRow (x0 (ix2 y (4 : Fin 5)))) (k.castAdd 4)))
          (fun k => x1 (ix2 (layerRow (x0 (ix2 y (4 : Fin 5)))) (k.natAdd 4))) f := by
  have hw : wordRow (posRow x0) (ix2 (0 : Fin 1) y) = layerWord (x0 (ix2 y (4 : Fin 5))) := by
    rw [wordRow_at, posRow_at]
  have hr := layerWord_range (x0 (ix2 y (4 : Fin 5)))
  unfold hiddenRows hidden0
  by_cases hf : f.val < 4
  · rw [dif_pos hf, Cert.LibFeatureMajor.stack_row_upper _ _ _ f hf y]
    show lnRows (feats x0) (ix2 ⟨f.val, hf⟩ y)
        * extractStridedSlice S4x16384 ![0, 0] (tableRows (wordRow (posRow x0)) x1) slices_S8x16384_o0_0_S4x16384 (ix2 ⟨f.val, hf⟩ y)
      + extractStridedSlice S4x16384 ![4, 0] (tableRows (wordRow (posRow x0)) x1) slices_S8x16384_o4_0_S4x16384 (ix2 ⟨f.val, hf⟩ y) = _
    rw [slice2_axis0_apply 0 _ _ ⟨f.val, hf⟩ y ((⟨f.val, hf⟩ : Fin 4).castAdd 4) (by show f.val = 0 + f.val; omega),
      slice2_axis0_apply 4 _ _ ⟨f.val, hf⟩ y ((⟨f.val, hf⟩ : Fin 4).natAdd 4) (by show 4 + f.val = 4 + f.val; rfl),
      tableRows_at _ x1 _ y (by rw [hw]; exact hr.1) (by rw [hw]; exact hr.2),
      tableRows_at _ x1 _ y (by rw [hw]; exact hr.1) (by rw [hw]; exact hr.2),
      lnRows_at, mul_rsqrt_eq_div_sqrt _ (spread_pos _)]
    unfold normed layerRow
    simp only [hw, feats_at]
  · rw [dif_neg hf, Cert.LibFeatureMajor.stack_row_last _ _ _ f (by have := f.isLt; omega) y, posRow_at]

/-- THE STORED VECTOR at `y`: the token function of row `y` of the token block, of the table block and of the
    weight blocks. -/
theorem payload_at (x0 : Vec Ideal S16384x5 .f32) (x1 : Vec Ideal S24x8 .f32) (x2 : Vec Ideal S5x64 .f32) (x3 : Vec Ideal S64x1 .f32)
    (x4 : Vec Ideal S64x32 .f32) (x5 : Vec Ideal S32x1 .f32) (x6 : Vec Ideal S32x1 .f32) (x7 : Vec Ideal S1x1 .f32) (y : Fin 16384) :
    k0_pay1 (F := Ideal) (k0_pay2 (F := Ideal) x0 x1) x2 x3 x4 x5 x6 x7 (ix1 y)
      = tokenOut (fun k => x0 (ix2 y k.castSucc)) (x0 (ix2 y (4 : Fin 5)))
          (fun l k => x1 (ix2 l (k.castAdd 4))) (fun l k => x1 (ix2 l (k.natAdd 4)))
          (fun f j => x2 (ix2 f j)) (fun j => x3 (ix2 j (0 : Fin 1))) (fun j l => x4 (ix2 j l)) (fun l => x5 (ix2 l (0 : Fin 1)))
          (fun l => x6 (ix2 l (0 : Fin 1))) (x7 (ix2 (0 : Fin 1) (0 : Fin 1))) := by
  rw [pay1_eq, pay2_eq]
  unfold tokenOut
  have h1 : ∀ j : Fin 64, dense1 (truncf .bf16 (hiddenRows x0 x1) bitsLt_bf16_f32) x2 x3 (ix2 j y) = _ := fun j =>
    (dense1_at _ x2 x3 j y).trans (congrArg (fun z => relu (z + x3 (ix2 j (0 : Fin 1))))
      (Finset.sum_congr rfl fun f _ => congrArg (fun z => z * x2 (ix2 f j)) (hiddenRows_at x0 x1 f y)))
  have h2 : ∀ l : Fin 32, dense2 (dense1 (truncf .bf16 (hiddenRows x0 x1) bitsLt_bf16_f32) x2 x3) x4 x5 (ix2 l y) = _ := fun l =>
    (dense2_at _ x4 x5 l y).trans (congrArg (fun z => relu (z + x5 (ix2 l (0 : Fin 1))))
      (Finset.sum_congr rfl fun j _ => congrArg (fun z => z * x4 (ix2 j l)) (h1 j)))
  exact (dense3_at _ x6 x7 y).trans (congrArg (fun z => z + x7 (ix2 (0 : Fin 1) (0 : Fin 1)))
    (Finset.sum_congr rfl fun l _ => congrArg (fun z => z * x6 (ix2 l (0 : Fin 1))) (h2 l)))

end Cert.KernelIdeal.Token

end
-- ==== Proof.KernelArray.lean ====
/-
  From the kernel's blocks to its result array.

  The grid has 64 points; point `t` is handed rows `16384·t … 16384·t + 16383` of the token array (all five columns),
  the whole table and the whole weight arrays, and writes entries `16384·t … 16384·t + 16383` of the output vector.
  Entry `y` of what point `t` writes is the token function of row `y` of its token block, which is row `16384·t + y` of
  the token array; so the blocks are the restrictions of ONE function of the arrays, `tokensOut`, and since the 64
  blocks tile the output vector, the vector ends holding `tokensOut` of the arrays as the region finds them.

  The arrays the region finds are the arguments re-laid by the host: the token array flattened to rows, the scale and
  shift tables set side by side, each bias as a column. After the region the host views the output vector as a
  64 × 16384 matrix, which is the program's result.
-/
import proofs.«132715_j64175401337509_2_alg».proof.Proof.Gen.KernelIdeal.Frame
import proofs.«132715_j64175401337509_2_alg».proof.Proof.KernelToken
import Idealize.ShloMosaic.Lib.StableHlo.Run

set_option maxRecDepth 16384

noncomputable section

namespace Cert.KernelIdeal.Whole

open Cert.KernelIdeal Cert.KernelIdeal.Gen Cert.KernelIdeal.Token Idealize.ShloMosaic Idealize.ShloMosaic.TcCoe
open Idealize.ShloMosaic.ValueIdx Idealize.SL.Sem Cert.Router
open Idealize.ShloMosaic.Pipeline (Dat)

/-- The output vector as ONE function of the arrays the region reads: entry `n` is the token function of row `n` of the
    token array, of the table (scale in columns 0–3, shift in columns 4–7) and of the weights. -/
def tokensOut (xf : S1048576x5.Idx → EReal) (gb : S24x8.Idx → EReal) (w1 : S5x64.Idx → EReal) (c1 : S64x1.Idx → EReal)
    (w2 : S64x32.Idx → EReal) (c2 : S32x1.Idx → EReal) (w3 : S32x1.Idx → EReal) (c3 : S1x1.Idx → EReal) : S1048576.Idx → EReal :=
  fun i => tokenOut (fun k => xf (ix2 (i 0 : Fin 1048576) k.castSucc)) (xf (ix2 (i 0 : Fin 1048576) (4 : Fin 5)))
    (fun l k => gb (ix2 l (k.castAdd 4))) (fun l k => gb (ix2 l (k.natAdd 4)))
    (fun f j => w1 (ix2 f j)) (fun j => c1 (ix2 j (0 : Fin 1))) (fun j l => w2 (ix2 j l)) (fun l => c2 (ix2 l (0 : Fin 1)))
    (fun l => w3 (ix2 l (0 : Fin 1))) (c3 (ix2 (0 : Fin 1) (0 : Fin 1)))

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the token window and the output window move with the point along their
    long axis; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = t.val :=
  (by decide +kernel : ∀ t : Fin grid0.N, _)

/-! ## The input blocks, read where the arrays hold them -/

/-- Row `y` of point `t`'s token block is row `16384·t + y` of the token array. -/
theorem tokBlock_at (c : Dev nD) (t : Fin cfg0.N) (y : Fin 16384) (k : Fin 5) (n : Fin 1048576) (hn : n.val = t.val * 16384 + y.val) :
    iblk m c 0 t (ix2 y k) = V m c main_v0 (ix2 n k) := by
  obtain ⟨e0, e1, -⟩ := idx_facts t
  show V m c main_v0 (((cfg0.win 0).blk t).view.emb (ix2 y k)) = _
  refine congrArg (V m c main_v0) (funext fun a => Fin.ext ?_)
  match a with
  | ⟨0, _⟩ => show win0_0.index t (0 : Fin 2) * 16384 + 1 * y.val = n.val; omega
  | ⟨1, _⟩ => show win0_0.index t (1 : Fin 2) * 5 + 1 * k.val = k.val; omega

/-- Every point's table block is the whole table. -/
theorem tabBlock_at (c : Dev nD) (t : Fin cfg0.N) (l : Fin 24) (k : Fin 8) : iblk m c 1 t (ix2 l k) = V m c main_v1 (ix2 l k) := by
  obtain ⟨-, -, e0, e1, -⟩ := idx_facts t
  show V m c main_v1 (((cfg0.win 1).blk t).view.emb (ix2 l k)) = _
  refine congrArg (V m c main_v1) (funext fun a => Fin.ext ?_)
  match a with
  | ⟨0, _⟩ => show win0_1.index t (0 : Fin 2) * 24 + 1 * l.val = l.val; omega
  | ⟨1, _⟩ => show win0_1.index t (1 : Fin 2) * 8 + 1 * k.val = k.val; omega

/-- … and likewise each weight block is its whole array. -/
theorem w1Block_at (c : Dev nD) (t : Fin cfg0.N) (f : Fin 5) (j : Fin 64) : iblk m c 2 t (ix2 f j) = V m c main_arg3 (ix2 f j) := by
  obtain ⟨-, -, -, -, e0, e1, -⟩ := idx_facts t
  show V m c main_arg3 (((cfg0.win 2).blk t).view.emb (ix2 f j)) = _
  refine congrArg (V m c main_arg3) (funext fun a => Fin.ext ?_)
  match a with
  | ⟨0, _⟩ => show win0_2.index t (0 : Fin 2) * 5 + 1 * f.val = f.val; omega
  | ⟨1, _⟩ => show win0_2.index t (1 : Fin 2) * 64 + 1 * j.val = j.val; omega

theorem c1Block_at (c : Dev nD) (t : Fin cfg0.N) (j : Fin 64) (u : Fin 1) : iblk m c 3 t (ix2 j u) = V m c main_v2 (ix2 j u) := by
  obtain ⟨-, -, -, -, -, -, e0, e1, -⟩ := idx_facts t
  show V m c main_v2 (((cfg0.win 3).blk t).view.emb (ix2 j u)) = _
  refine congrArg (V m c main_v2) (funext fun a => Fin.ext ?_)
  match a with
  | ⟨0, _⟩ => show win0_3.index t (0 : Fin 2) * 64 + 1 * j.val = j.val; omega
  | ⟨1, _⟩ => show win0_3.index t (1 : Fin 2) * 1 + 1 * u.val = u.val; omega

theorem w2Block_at (c : Dev nD) (t : Fin cfg0.N) (j : Fin 64) (l : Fin 32) : iblk m c 4 t (ix2 j l) = V m c main_arg5 (ix2 j l) := by
  obtain ⟨-, -, -, -, -, -, -, -, e0, e1, -⟩ := idx_facts t
  show V m c main_arg5 (((cfg0.win 4).blk t).view.emb (ix2 j l)) = _
  refine congrArg (V m c main_arg5) (funext fun a => Fin.ext ?_)
  match a with
  | ⟨0, _⟩ => show win0_4.index t (0 : Fin 2) * 64 + 1 * j.val = j.val; omega
  | ⟨1, _⟩ => show win0_4.index t (1 : Fin 2) * 32 + 1 * l.val = l.val; omega

theorem c2Block_at (c : Dev nD) (t : Fin cfg0.N) (l : Fin 32) (u : Fin 1) : iblk m c 5 t (ix2 l u) = V m c main_v3 (ix2 l u) := by
  obtain ⟨-, -, -, -, -, -, -, -, -, -, e0, e1, -⟩ := idx_facts t
  show V m c main_v3 (((cfg0.win 5).blk t).view.emb (ix2 l u)) = _
  refine congrArg (V m c main_v3) (funext fun a => Fin.ext ?_)
  match a with
  | ⟨0, _⟩ => show win0_5.index t (0 : Fin 2) * 32 + 1 * l.val = l.val; omega
  | ⟨1, _⟩ => show win0_5.index t (1 : Fin 2) * 1 + 1 * u.val = u.val; omega

theorem w3Block_at (c : Dev nD) (t : Fin cfg0.N) (l : Fin 32) (u : Fin 1) : iblk m c 6 t (ix2 l u) = V m c main_arg7 (ix2 l u) := by
  obtain ⟨-, -, -, -, -, -, -, -, -, -, -, -, e0, e1, -⟩ := idx_facts t
  show V m c main_arg7 (((cfg0.win 6).blk t).view.emb (ix2 l u)) = _
  refine congrArg (V m c main_arg7) (funext fun a => Fin.ext ?_)
  match a with
  | ⟨0, _⟩ => show win0_6.index t (0 : Fin 2) * 32 + 1 * l.val = l.val; omega
  | ⟨1, _⟩ => show win0_6.index t (1 : Fin 2) * 1 + 1 * u.val = u.val; omega

theorem c3Block_at (c : Dev nD) (t : Fin cfg0.N) (u v : Fin 1) : iblk m c 7 t (ix2 u v) = V m c main_v4 (ix2 u v) := by
  obtain ⟨-, -, -, -, -, -, -, -, -, -, -, -, -, -, e0, e1, -⟩ := idx_facts t
  show V m c main_v4 (((cfg0.win 7).blk t).view.emb (ix2 u v)) = _
  refine congrArg (V m c main_v4) (funext fun a => Fin.ext ?_)
  match a with
  | ⟨0, _⟩ => show win0_7.index t (0 : Fin 2) * 1 + 1 * u.val = u.val; omega
  | ⟨1, _⟩ => show win0_7.index t (1 : Fin 2) * 1 + 1 * v.val = v.val; omega

/-! ## What a point writes back, the cover, the final array -/

/-- WHAT POINT `t` WRITES BACK is block `t` of `tokensOut` of the arrays as the region finds them. -/
theorem flushed_eq (c : Dev nD) (t : Fin cfg0.N) :
    (dats m 0 c).flushed 8 t = ((cfg0.win 8).blk t).view.read (Elt Ideal)
      (tokensOut (V m c main_v0) (V m c main_v1) (V m c main_arg3) (V m c main_v2) (V m c main_arg5) (V m c main_v3)
        (V m c main_arg7) (V m c main_v4)) := by
  show (cfg0.win 8).cut (grid0.coords t) ((dats m 0 c).after 8 t) = _
  rw [after0_8]
  unfold out0_8
  rw [View.canon_unit_zero hz1]
  simp only [View.ld_unit_zero (S := S16384x5) hz2, View.ld_unit_zero (S := S24x8) hz2, View.ld_unit_zero (S := S5x64) hz2,
    View.ld_unit_zero (S := S64x1) hz2, View.ld_unit_zero (S := S64x32) hz2, View.ld_unit_zero (S := S32x1) hz2,
    View.ld_unit_zero (S := S1x1) hz2]
  funext j
  obtain ⟨y, rfl⟩ : ∃ y : Fin 16384, j = ix1 y := ⟨j 0, eq_ix1 j⟩
  have e8 := (idx_facts t).2.2.2.2.2.2.2.2.2.2.2.2.2.2.2.2
  refine (payload_at (iblk m c 0 t) (iblk m c 1 t) (iblk m c 2 t) (iblk m c 3 t) (iblk m c 4 t) (iblk m c 5 t) (iblk m c 6 t)
    (iblk m c 7 t) y).trans ?_
  show _ = tokensOut _ _ _ _ _ _ _ _ (((cfg0.win 8).blk t).view.emb (ix1 y))
  unfold tokensOut
  have hn : ((((cfg0.win 8).blk t).view.emb (ix1 y)) 0 : Fin 1048576).val = t.val * 16384 + y.val := by
    show win0_8.index t (0 : Fin 1) * 16384 + 1 * y.val = _; omega
  simp only [tokBlock_at m c t y _ _ hn, tabBlock_at, w1Block_at, c1Block_at, w2Block_at, c2Block_at, w3Block_at, c3Block_at]

/-- An index of the output vector is in point `t`'s block iff it lies in the block's range. -/
theorem mem_blk (t : Fin cfg0.N) (i : S1048576.Idx) :
    i ∈ ((cfg0.win 8).blk t).view.set ↔ ∀ a : Fin 1, win0_8.index t a * S16384.size a ≤ (i a).val ∧ (i a).val < win0_8.index t a * S16384.size a + S16384.size a := by
  show i ∈ ((View.whole main_v5).slice (win0_8.rect t)).set ↔ _
  rw [View.set_slice_whole, Rect.mem_set_unit]
  exact Iff.rfl

/-- THE COVER: entry `i` is in the block of point `i / 16384`. -/
theorem cover (i : S1048576.Idx) : ∃ t : Fin cfg0.N, (cfg0.win 8).flush t = true ∧ i ∈ ((cfg0.win 8).blk t).view.set := by
  have hi : (i 0).val < 1048576 := (i 0).isLt
  have hN : grid0.N = 64 := N_0
  refine ⟨⟨(i 0).val / 16384, by show (i 0).val / 16384 < grid0.N; omega⟩, flush0_8 _, ?_⟩
  rw [mem_blk]
  intro a
  have e8 := (idx_facts ⟨(i 0).val / 16384, by show (i 0).val / 16384 < grid0.N; omega⟩).2.2.2.2.2.2.2.2.2.2.2.2.2.2.2.2
  match a with
  | ⟨0, _⟩ =>
    show win0_8.index _ (0 : Fin 1) * 16384 ≤ (i 0).val ∧ (i 0).val < win0_8.index _ (0 : Fin 1) * 16384 + 16384
    rw [e8]
    show (i 0).val / 16384 * 16384 ≤ (i 0).val ∧ (i 0).val < (i 0).val / 16384 * 16384 + 16384
    omega

/-- THE OUTPUT VECTOR after the region: `tokensOut` of the arrays as the region finds them. -/
theorem final (c : Dev nD) :
    (dats m 0 c).arrAt 8 cfg0.N = tokensOut (V m c main_v0) (V m c main_v1) (V m c main_arg3) (V m c main_v2) (V m c main_arg5)
      (V m c main_v3) (V m c main_arg7) (V m c main_v4) :=
  (dats m 0 c).arrAt_eq_of_cover 8 _ (fun t _ => flushed_eq m c t) cover

end Cert.KernelIdeal.Whole

end
-- ==== Proof.LibEdgeIndex.lean ====
/-
  Three index operations on row arrays, read at an index.

  An array of N rows of C entries is read at E start indices (an E-by-1 integer array), or is accumulated into at
  them. This file fixes the three dimension-number records involved and proves what each operation reads:

  * gathering ROWS (operand N-by-C, result E-by-C): result element (e, f) is the operand at row "start index e, read
    as a signed integer and clamped into [0, N - 1]", column f  (gather_rows_apply);
  * gathering ENTRIES of a vector (operand N, result E): result element e is the operand at that same clamped start
    index  (gather_vec_apply);
  * scattering rows (operand N-by-C, updates E-by-C): the start index is read SIGNED and is NOT clamped, so if update
    element (e, f) lands on operand element (i, g) then the start index e, as an integer, is i, and f = g
    (scatter_rows_lands).

  The extents N, E, C stay variables throughout: nothing is enumerated.
-/
import Idealize.ShloMosaic.Lib.ValueIdx

noncomputable section

open scoped BigOperators

namespace Cert.Lib.EdgeIndex

open Idealize.ShloMosaic Idealize.ShloMosaic.ValueIdx

variable {α : Type}

/-! ## Two facts about the axes of a rank-2 shape, free of the extents -/

/-- Axis 1 is not in the one-element list of axis 0. -/
theorem one_not_mem_zero : (1 : Fin 2) ∉ ([0] : List (Fin 2)) := by decide
/-- Axis 0 is not among the axes kept when axis 0 is removed. -/
theorem zero_not_mem_kept : (0 : Fin 2) ∉ (List.finRange 2).filter (fun a => a ∉ ([0] : List (Fin 2))) := by decide
/-- Axis 1 is among the axes kept when axis 0 is removed. -/
theorem one_mem_kept : (1 : Fin 2) ∈ (List.finRange 2).filter (fun a => a ∉ ([0] : List (Fin 2))) := by decide

/-! ## Gathering rows -/

/-- The dimension numbers of a row gather: operand `[N, C]`, start indices `[E, 1]`, result `[E, C]`; the operand's
    row axis is collapsed and indexed, its column axis is the result's offset axis, slices are `1 × C`. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`,
    column `f`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsGather N E C wf) x idx (ix2 e f)
      = x (ix2 (⟨min (idx (ix2 e (⟨0, Nat.one_pos⟩ : Fin 1))).toInt.toNat (N - 1), by omega⟩ : Fin N) f) := by
  -- the row axis: the clamped start, no batching coordinate, no offset (the axis is collapsed)
  have h0 : (rowsGather N E C wf).start (ix2 e f) idx 0 + (rowsGather N E C wf).batchCoord (ix2 e f) 0
      + (rowsGather N E C wf).offCoord (ix2 e f) 0 = min (idx (ix2 e (⟨0, Nat.one_pos⟩ : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e f) ⟨List.idxOf (0 : Fin 2) (rowsGather N E C wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  -- the column axis: start 0 (the axis is not indexed), no batching coordinate, offset the result's column
  have h1 : (rowsGather N E C wf).start (ix2 e f) idx 1 + (rowsGather N E C wf).batchCoord (ix2 e f) 1
      + (rowsGather N E C wf).offCoord (ix2 e f) 1 = f.val := by
    rw [GatherDims.batchCoord_eq_zero _ _ _ List.not_mem_nil]
    unfold GatherDims.start
    rw [dif_neg (show (1 : Fin 2) ∉ (rowsGather N E C wf).startIndexMap from one_not_mem_zero)]
    simp only [Nat.add_zero, Nat.zero_add]
    unfold GatherDims.offCoord
    rw [dif_pos (show (1 : Fin 2) ∈ (rowsGather N E C wf).sKept from one_mem_kept)]
    rfl
  unfold Host.gather
  congr 1
  funext a
  refine Fin.ext ?_
  match a with
  | ⟨0, _⟩ => exact h0
  | ⟨1, _⟩ => exact h1

/-! ## Gathering entries of a vector -/

/-- The dimension numbers of an entry gather: operand `[N]`, start indices `[E, 1]`, result `[E]`; the operand's one
    axis is collapsed and indexed, the result has no offset axis, slices are single entries. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at the start index `idx[e, 0]`, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (⟨0, Nat.one_pos⟩ : Fin 1))).toInt.toNat (N - 1), by omega⟩ : Fin N)) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (⟨0, Nat.one_pos⟩ : Fin 1) := by
    funext b; refine Fin.ext ?_
    match b with
    | ⟨0, _⟩ => rfl
    | ⟨1, _⟩ => rfl
  rw [hsi]
  rfl

/-! ## Scattering rows -/

/-- The dimension numbers of a row scatter: operand `[N, C]`, scatter indices `[E, 1]`, updates `[E, C]`; the updates'
    column axis is the window axis, the operand's row axis is inserted and indexed. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE A ROW SCATTER'S UPDATE LANDS: the start index is read signed and is not clamped, so update element `(e, f)`
    can land on operand element `(i, g)` only if the start index `idx[e, 0]`, as an integer, is `i`, and `f = g`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (i : Fin N) (g : Fin C)
    (h : (rowsScatter N E C wf).resultIdx? (ix2 e f) idx = some (ix2 i g)) :
    (idx (ix2 e (⟨0, Nat.one_pos⟩ : Fin 1))).toInt = (i.val : Int) ∧ f = g := by
  -- the row axis: the start is the start index read signed, the window coordinate is 0 (the axis is inserted)
  have hs0 : (rowsScatter N E C wf).start (ix2 e f) idx 0 = (idx (ix2 e (⟨0, Nat.one_pos⟩ : Fin 1))).toInt := by
    unfold ScatterDims.start
    rw [dif_pos (show (0 : Fin 2) ∈ (rowsScatter N E C wf).scatterDimsToOperandDims from List.mem_singleton.mpr rfl)]
    have hsi : (rowsScatter N E C wf).siIdx (ix2 e f) ⟨List.idxOf (0 : Fin 2) (rowsScatter N E C wf).scatterDimsToOperandDims,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
  have hw0 : (rowsScatter N E C wf).window (ix2 e f) 0 = 0 := by
    unfold ScatterDims.window
    rw [dif_neg (show (0 : Fin 2) ∉ (rowsScatter N E C wf).sKept from zero_not_mem_kept)]
  -- the column axis: the start is 0 (the axis is not indexed), the window coordinate is the update's column
  have hs1 : (rowsScatter N E C wf).start (ix2 e f) idx 1 = 0 := by
    unfold ScatterDims.start
    rw [dif_neg (show (1 : Fin 2) ∉ (rowsScatter N E C wf).scatterDimsToOperandDims from one_not_mem_zero)]
  have hw1 : (rowsScatter N E C wf).window (ix2 e f) 1 = f.val := by
    unfold ScatterDims.window
    rw [dif_pos (show (1 : Fin 2) ∈ (rowsScatter N E C wf).sKept from one_mem_kept)]
    rfl
  unfold ScatterDims.resultIdx? at h
  split at h
  · rename_i hin
    have hi := Option.some.inj h
    have e0 := congrArg Fin.val (congrFun hi 0)
    have e1 := congrArg Fin.val (congrFun hi 1)
    have p0 := (hin 0).1
    simp only [hs0, hw0] at e0 p0
    simp only [hs1, hw1] at e1
    refine ⟨?_, Fin.ext ?_⟩
    · have : ((ix2 i g : (⟨2, ![N, C]⟩ : Shape).Idx) 0).val = i.val := rfl
      omega
    · have : ((ix2 i g : (⟨2, ![N, C]⟩ : Shape).Idx) 1).val = g.val := rfl
      omega
  · exact absurd h (by simp)

end Cert.Lib.EdgeIndex

end
-- ==== Proof.RefToken.lean ====
/-
  What the reference computes for ONE token.

  The reference flattens the token array to rows and then works row by row: every intermediate array's row `n` depends
  on row `n` of the flattened array only. Reading its operations one at a time at row `n`: the mean of the four
  features, the centred features, the shifted variance, the quotient by its square root; the layer word of the
  position, which names a row of the scale table and of the shift table (the word is in `[0, 23]`, so the wrap-around
  for negative indices and the gather's clamp both leave it alone); the five numbers entering the dense layers; the
  three dense layers. Put together: entry `(b, s)` of the result is the token function of row `16384·b + s`.
-/
import proofs.«132715_j64175401337509_2_alg».proof.Proof.Gen.ReferenceIdeal.Read
import proofs.«132715_j64175401337509_2_alg».proof.Proof.TokenSpec
import proofs.«132715_j64175401337509_2_alg».proof.Proof.LibFeatureMajor
import proofs.«132715_j64175401337509_2_alg».proof.Proof.LibEdgeIndex

set_option maxRecDepth 16384

noncomputable section

namespace Cert.ReferenceIdeal.Token

open Cert.ReferenceIdeal Cert.ReferenceIdeal.Gen Cert.ReferenceIdeal.Read Idealize.ShloMosaic Idealize.ShloMosaic.TcCoe
open Idealize.ShloMosaic.ValueIdx Cert.Router

/-- Two rank-2 indices are one index when their coordinates agree by unfolding: axis by axis. -/
macro "idx2_rfl" : tactic =>
  `(tactic| exact funext fun a => Fin.ext (by match a with | ⟨0, _⟩ => rfl | ⟨1, _⟩ => rfl))
/-- The same for rank-1 indices. -/
macro "idx1_rfl" : tactic =>
  `(tactic| exact funext fun a => Fin.ext (by match a with | ⟨0, _⟩ => rfl))

variable (x0 : (⟨S64x16384x5, .f32⟩ : BufTy).Contents (Elt Ideal))

/-- The features of row `n`, as the token function takes them. -/
abbrev rowFeats (n : Fin 1048576) : Fin 4 → EReal := fun k => val_main_v0 (F := Ideal) x0 (ix2 n k.castSucc)
/-- The position of row `n`. -/
abbrev rowPos (n : Fin 1048576) : EReal := val_main_v0 (F := Ideal) x0 (ix2 n (4 : Fin 5))

theorem v7_at (n : Fin 1048576) (k : Fin 4) : val_main_v7 (F := Ideal) x0 (ix2 n k) = rowFeats x0 n k := by
  rw [val_main_v7_apply]
  exact congrArg _ (by idx2_rfl)

theorem v2_at (n : Fin 1048576) : val_main_v2 (F := Ideal) x0 (ix1 n) = rowPos x0 n := by
  rw [val_main_v2_apply, val_main_v1_apply]
  exact congrArg _ (funext fun a => Fin.ext (by
    match a with
    | ⟨0, _⟩ => show n.val / 1 = n.val; omega
    | ⟨1, _⟩ => rfl))

/-! ## Layer normalisation, row by row -/

theorem v11_at (n : Fin 1048576) (u : Fin 1) : val_main_v11 (F := Ideal) x0 (ix2 n u) = mean4 (rowFeats x0 n) := by
  rw [val_main_v11_apply, val_main_v9_apply, val_main_v10_apply, val_main_v8_apply]
  unfold mean4
  show Ideal.div (Ideal.ofBits .f32 0x00000000#32 + _) (Ideal.ofBits .f32 0x40800000#32) = Ideal.div _ kFour
  rw [Ideal.ofBits_zero_f32, zero_add]
  congr 1
  refine Finset.sum_congr rfl fun k _ => ?_
  rw [show idx_main_v8 (idx_main_v9 (ix2 n u)) k = ix2 n k from by idx2_rfl]
  exact v7_at x0 n k

theorem v13_at (n : Fin 1048576) (k : Fin 4) : val_main_v13 (F := Ideal) x0 (ix2 n k) = centred (rowFeats x0 n) k := by
  rw [val_main_v13_apply, val_main_v12_apply, v7_at,
    show idx_main_v12 (ix2 n k) = ix2 n (0 : Fin 1) from by idx2_rfl, v11_at]
  rfl

theorem v20_at (n : Fin 1048576) (k : Fin 4) : val_main_v20 (F := Ideal) x0 (ix2 n k) = centred (rowFeats x0 n) k := by
  rw [val_main_v20_apply, val_main_v19_apply, v7_at,
    show idx_main_v19 (ix2 n k) = ix2 n (0 : Fin 1) from by idx2_rfl, v11_at]
  rfl

theorem v22_at (n : Fin 1048576) (u : Fin 1) : val_main_v22 (F := Ideal) x0 (ix2 n u) = spread (rowFeats x0 n) := by
  rw [val_main_v22_apply, val_main_v18_apply, val_main_v16_apply, val_main_v17_apply, val_main_v21_apply, val_main_v15_apply]
  unfold spread
  show Ideal.div (Ideal.ofBits .f32 0x00000000#32 + _) (Ideal.ofBits .f32 0x40800000#32) + Ideal.ofBits .f32 0x3727C5AC#32
    = Ideal.div _ kFour + kEps
  rw [Ideal.ofBits_zero_f32, zero_add]
  congr 2
  refine Finset.sum_congr rfl fun k _ => ?_
  rw [show idx_main_v15 (idx_main_v16 (ix2 n u)) k = ix2 n k from by idx2_rfl, val_main_v14_apply, v13_at]
  rfl

/-- The normalised feature, the quotient spelling. -/
theorem v25_at (n : Fin 1048576) (k : Fin 4) :
    val_main_v25 (F := Ideal) x0 (ix2 n k) = Ideal.div (centred (rowFeats x0 n) k) (Ideal.sqrt (spread (rowFeats x0 n))) := by
  rw [val_main_v25_apply, v20_at, val_main_v24_apply,
    show idx_main_v24 (ix2 n k) = ix2 n (0 : Fin 1) from by idx2_rfl, val_main_v23_apply, v22_at]
  rfl

/-! ## The layer word and the two table rows it names -/

theorem v6_at (n : Fin 1048576) : val_main_v6 (F := Ideal) x0 (ix1 n) = layerWord (rowPos x0 n) :=
  (rfl : val_main_v6 (F := Ideal) x0 (ix1 n) = layerWord (val_main_v2 (F := Ideal) x0 (ix1 n))).trans
    (congrArg layerWord (v2_at x0 n))

/-- A word whose signed reading is not negative is not below zero. -/
theorem not_slt_zero {w : BitVec 32} (h : 0 ≤ w.toInt) : IntOp.cmpi .slt w 0#32 = 0#1 :=
  eq_zero_of_ne_one fun hc => by
    have := IntOp.cmpi_slt.mp hc
    have h0 : (0#32 : BitVec 32).toInt = 0 := by decide
    omega

/-- The index the scale table is read at: the layer word (never negative, so the wrap-around leaves it). -/
theorem v30_at (n : Fin 1048576) : val_main_v30 (F := Ideal) x0 (ix1 n) = layerWord (rowPos x0 n) := by
  rw [val_main_v30_apply, val_main_v27_apply, val_main_v26_apply, val_main_c_6_apply, v6_at,
    not_slt_zero (layerWord_range _).1, select_zero]

/-- The index the shift table is read at: the same word. -/
theorem v38_at (n : Fin 1048576) : val_main_v38 (F := Ideal) x0 (ix1 n) = layerWord (rowPos x0 n) := by
  rw [val_main_v38_apply, val_main_v35_apply, val_main_v34_apply, val_main_c_8_apply, v6_at,
    not_slt_zero (layerWord_range _).1, select_zero]

/-- A word in `[0, 23]`, read signed and clamped into `[0, 23]`, is itself. -/
theorem clamp_layerWord (p : EReal) : min (layerWord p).toInt.toNat (24 - 1) = (layerRow p).val := by
  have := layerWord_range p
  show min (layerWord p).toInt.toNat 23 = (layerWord p).toInt.toNat
  omega

theorem v32_at (x1 : (⟨S24x4, .f32⟩ : BufTy).Contents (Elt Ideal)) (n : Fin 1048576) (k : Fin 4) :
    val_main_v32 (F := Ideal) x0 x1 (ix2 n k) = x1 (ix2 (layerRow (rowPos x0 n)) k) := by
  unfold val_main_v32
  refine (Cert.Lib.EdgeIndex.gather_rows_apply (N := 24) (E := 1048576) (C := 4) (by norm_num)
    gather_S24x4_S1048576x1_S1048576x4_1_0_n_n_0_1_14_wf x1 (val_main_v31 (F := Ideal) x0) n k).trans ?_
  refine congrArg x1 (funext fun a => Fin.ext ?_)
  match a with
  | ⟨1, _⟩ => rfl
  | ⟨0, _⟩ =>
    show min (val_main_v31 (F := Ideal) x0 (ix2 n (⟨0, Nat.one_pos⟩ : Fin 1))).toInt.toNat (24 - 1) = _
    rw [val_main_v31_apply, show idx_main_v31 (ix2 n (⟨0, Nat.one_pos⟩ : Fin 1)) = ix1 n from by idx1_rfl, v30_at]
    exact clamp_layerWord _

theorem v40_at (x2 : (⟨S24x4, .f32⟩ : BufTy).Contents (Elt Ideal)) (n : Fin 1048576) (k : Fin 4) :
    val_main_v40 (F := Ideal) x0 x2 (ix2 n k) = x2 (ix2 (layerRow (rowPos x0 n)) k) := by
  unfold val_main_v40
  refine (Cert.Lib.EdgeIndex.gather_rows_apply (N := 24) (E := 1048576) (C := 4) (by norm_num)
    gather_S24x4_S1048576x1_S1048576x4_1_0_n_n_0_1_14_wf x2 (val_main_v39 (F := Ideal) x0) n k).trans ?_
  refine congrArg x2 (funext fun a => Fin.ext ?_)
  match a with
  | ⟨1, _⟩ => rfl
  | ⟨0, _⟩ =>
    show min (val_main_v39 (F := Ideal) x0 (ix2 n (⟨0, Nat.one_pos⟩ : Fin 1))).toInt.toNat (24 - 1) = _
    rw [val_main_v39_apply, show idx_main_v39 (ix2 n (⟨0, Nat.one_pos⟩ : Fin 1)) = ix1 n from by idx1_rfl, v38_at]
    exact clamp_layerWord _

/-! ## The five numbers entering the dense layers -/

variable (x1 x2 : (⟨S24x4, .f32⟩ : BufTy).Contents (Elt Ideal))

theorem v43_at (n : Fin 1048576) (f : Fin 5) :
    val_main_v43 (F := Ideal) x0 x1 x2 (ix2 n f)
      = hidden0 (rowFeats x0 n) (rowPos x0 n) (fun k => x1 (ix2 (layerRow (rowPos x0 n)) k))
          (fun k => x2 (ix2 (layerRow (rowPos x0 n)) k)) f := by
  unfold val_main_v43 hidden0
  by_cases hf : f.val < 4
  · rw [dif_pos hf, Cert.LibFeatureMajor.beside_col_left _ _ _ n f hf, val_main_v41_apply, val_main_v33_apply,
      v25_at, v32_at, v40_at]
    rfl
  · rw [dif_neg hf, Cert.LibFeatureMajor.beside_col_right _ _ _ n f (0 : Fin 1) (by have := f.isLt; show 0 + 4 = f.val; omega),
      val_main_v42_apply, show idx_main_v42 (ix2 n (0 : Fin 1)) = ix1 n from by idx1_rfl, v2_at]

/-! ## The dense layers and the result -/

variable (x3 : (⟨S5x64, .f32⟩ : BufTy).Contents (Elt Ideal)) (x4 : (⟨S64, .f32⟩ : BufTy).Contents (Elt Ideal))
  (x5 : (⟨S64x32, .f32⟩ : BufTy).Contents (Elt Ideal)) (x6 : (⟨S32, .f32⟩ : BufTy).Contents (Elt Ideal))
  (x7 : (⟨S32x1, .f32⟩ : BufTy).Contents (Elt Ideal)) (x8 : (⟨S1, .f32⟩ : BufTy).Contents (Elt Ideal))

theorem v48_at (n : Fin 1048576) (j : Fin 64) :
    val_main_v48 (F := Ideal) x0 x1 x2 x3 x4 (ix2 n j)
      = relu (∑ f : Fin 5, val_main_v43 (F := Ideal) x0 x1 x2 (ix2 n f) * x3 (ix2 f j) + x4 (ix1 j)) := by
  rw [val_main_v48_apply, val_main_v47_apply, val_main_v44_apply, val_main_v46_apply, val_main_v45_apply,
    val_main_call1_v0_apply, val_main_call1_cst_apply]
  unfold relu
  rw [show idx_main_v45 (idx_main_v46 (ix2 n j)) = ix1 j from by idx1_rfl]
  exact congrArg (fun z => max (z + x4 (ix1 j)) kZero) (Finset.sum_congr rfl fun f _ => by
    rw [show lidx_main_v44 (ix2 n j) f = ix2 n f from by idx2_rfl,
      show ridx_main_v44 (ix2 n j) f = ix2 f j from by idx2_rfl])

theorem v53_at (n : Fin 1048576) (l : Fin 32) :
    val_main_v53 (F := Ideal) x0 x1 x2 x3 x4 x5 x6 (ix2 n l)
      = relu (∑ j : Fin 64, val_main_v48 (F := Ideal) x0 x1 x2 x3 x4 (ix2 n j) * x5 (ix2 j l) + x6 (ix1 l)) := by
  rw [val_main_v53_apply, val_main_v52_apply, val_main_v49_apply, val_main_v51_apply, val_main_v50_apply,
    val_main_call2_v0_apply, val_main_call2_cst_apply]
  unfold relu
  rw [show idx_main_v50 (idx_main_v51 (ix2 n l)) = ix1 l from by idx1_rfl]
  exact congrArg (fun z => max (z + x6 (ix1 l)) kZero) (Finset.sum_congr rfl fun j _ => by
    rw [show lidx_main_v49 (ix2 n l) j = ix2 n j from by idx2_rfl,
      show ridx_main_v49 (ix2 n l) j = ix2 j l from by idx2_rfl])

theorem v57_at (n : Fin 1048576) (u : Fin 1) :
    val_main_v57 (F := Ideal) x0 x1 x2 x3 x4 x5 x6 x7 x8 (ix2 n u)
      = ∑ l : Fin 32, val_main_v53 (F := Ideal) x0 x1 x2 x3 x4 x5 x6 (ix2 n l) * x7 (ix2 l (0 : Fin 1)) + x8 (ix1 (0 : Fin 1)) := by
  rw [val_main_v57_apply, val_main_v54_apply, val_main_v56_apply, val_main_v55_apply]
  rw [show idx_main_v55 (idx_main_v56 (ix2 n u)) = ix1 (0 : Fin 1) from by idx1_rfl]
  exact congrArg (fun z => z + x8 (ix1 (0 : Fin 1))) (Finset.sum_congr rfl fun l _ => by
    rw [show lidx_main_v54 (ix2 n u) l = ix2 n l from by idx2_rfl,
      show ridx_main_v54 (ix2 n u) l = ix2 l (0 : Fin 1) from funext fun a => Fin.ext (by
        match a with
        | ⟨0, _⟩ => rfl
        | ⟨1, _⟩ => have := u.isLt; show u.val = 0; omega)])

/-- THE REFERENCE'S RESULT at `(b, s)`: the token function of row `16384·b + s` of the flattened token array, of the two
    tables and of the weights. -/
theorem result_at (b : Fin 64) (s : Fin 16384) (n : Fin 1048576) (hn : n.val = b.val * 16384 + s.val) :
    val_main_v58 (F := Ideal) x0 x1 x2 x3 x4 x5 x6 x7 x8 (ix2 b s)
      = tokenOut (rowFeats x0 n) (rowPos x0 n) (fun l k => x1 (ix2 l k)) (fun l k => x2 (ix2 l k))
          (fun f j => x3 (ix2 f j)) (fun j => x4 (ix1 j)) (fun j l => x5 (ix2 j l)) (fun l => x6 (ix1 l))
          (fun l => x7 (ix2 l (0 : Fin 1))) (x8 (ix1 (0 : Fin 1))) := by
  rw [val_main_v58_apply,
    show idx_main_v58 (ix2 b s) = ix2 n (0 : Fin 1) from funext fun a => Fin.ext (by
      match a with
      | ⟨0, _⟩ => show (b.val * 16384 + s.val) / 1 = n.val; omega
      | ⟨1, _⟩ => rfl)]
  unfold tokenOut
  have h1 : ∀ j : Fin 64, val_main_v48 (F := Ideal) x0 x1 x2 x3 x4 (ix2 n j) = _ := fun j =>
    (v48_at x0 x1 x2 x3 x4 n j).trans (congrArg (fun z => relu (z + x4 (ix1 j)))
      (Finset.sum_congr rfl fun f _ => congrArg (fun z => z * x3 (ix2 f j)) (v43_at x0 x1 x2 n f)))
  have h2 : ∀ l : Fin 32, val_main_v53 (F := Ideal) x0 x1 x2 x3 x4 x5 x6 (ix2 n l) = _ := fun l =>
    (v53_at x0 x1 x2 x3 x4 x5 x6 n l).trans (congrArg (fun z => relu (z + x6 (ix1 l)))
      (Finset.sum_congr rfl fun j _ => congrArg (fun z => z * x5 (ix2 j l)) (h1 j)))
  exact (v57_at x0 x1 x2 x3 x4 x5 x6 x7 x8 n (0 : Fin 1)).trans (congrArg (fun z => z + x8 (ix1 (0 : Fin 1)))
    (Finset.sum_congr rfl fun l _ => congrArg (fun z => z * x7 (ix2 l (0 : Fin 1))) (h2 l)))

end Cert.ReferenceIdeal.Token

end
-- ==== Proof.Bridge.lean ====
/-
  The two programs compute one function.

  The kernel's program: the host flattens the token array to rows, sets the scale and shift tables side by side and
  turns each bias into a column; the region leaves the output vector at the token function of every row; the host views
  that vector as a 64 × 16384 matrix. So entry `(b, s)` of the kernel's result is the token function of row
  `16384·b + s`, with the scale read in the joined table's columns 0–3 and the shift in its columns 4–7, each bias read
  in its column. The reference's result at `(b, s)` is the token function of the same row with the tables and biases read
  directly. The joined table's left half is the scale table and its right half the shift table; a vector turned into a
  column reads the vector: the two results are equal, entry by entry.
-/
import proofs.«132715_j64175401337509_2_alg».proof.Proof.KernelArray
import proofs.«132715_j64175401337509_2_alg».proof.Proof.RefToken
import proofs.«132715_j64175401337509_2_alg».proof.Proof.Gen.ReferenceIdeal.Run

set_option maxRecDepth 16384

noncomputable section

namespace Cert.Bridge

open Idealize.ShloMosaic Idealize.ShloMosaic.TcCoe Idealize.ShloMosaic.ValueIdx Idealize.SL.Sem Cert.Router

/-! ## The kernel's program around its region -/

section Kernel

open Cert.KernelIdeal Cert.KernelIdeal.Gen Cert.KernelIdeal.Whole

variable (m : (ℓ : Loc nD τ sig) → Buf (Elt Ideal) ℓ) (ρ : Dev nD → PrngReg)

/-- The token array as the region finds it: the argument flattened to rows. -/
theorem V_tokens (c : Dev nD) :
    (V m c main_v0 : S1048576x5.Idx → EReal)
      = shapeCast S1048576x5 (m ((c : Thread nD τ).loc main_arg0)) shapeCasts_S64x16384x5_S1048576x5 := by
  show StableHlo.after hostOps0 (fun b => m (c, b)) (Proc.devRef .tc main_v0) = _
  after_results
  rfl

/-- The table as the region finds it: the scale table and the shift table side by side. -/
theorem V_table (c : Dev nD) :
    (V m c main_v1 : S24x8.Idx → EReal)
      = concatenate S24x8 1 [⟨S24x4, m ((c : Thread nD τ).loc main_arg1)⟩, ⟨S24x4, m ((c : Thread nD τ).loc main_arg2)⟩]
          concatenates_S24x4_S24x4_S24x8_d1 := by
  show StableHlo.after hostOps0 (fun b => m (c, b)) (Proc.devRef .tc main_v1) = _
  after_results

/-- The three biases as the region finds them: columns. -/
theorem V_bias1 (c : Dev nD) :
    (V m c main_v2 : S64x1.Idx → EReal) = shapeCast S64x1 (m ((c : Thread nD τ).loc main_arg4)) shapeCasts_S64_S64x1 := by
  show StableHlo.after hostOps0 (fun b => m (c, b)) (Proc.devRef .tc main_v2) = _
  after_results
  rfl
theorem V_bias2 (c : Dev nD) :
    (V m c main_v3 : S32x1.Idx → EReal) = shapeCast S32x1 (m ((c : Thread nD τ).loc main_arg6)) shapeCasts_S32_S32x1 := by
  show StableHlo.after hostOps0 (fun b => m (c, b)) (Proc.devRef .tc main_v3) = _
  after_results
  rfl
theorem V_bias3 (c : Dev nD) :
    (V m c main_v4 : S1x1.Idx → EReal) = shapeCast S1x1 (m ((c : Thread nD τ).loc main_arg8)) shapeCasts_S1_S1x1 := by
  show StableHlo.after hostOps0 (fun b => m (c, b)) (Proc.devRef .tc main_v4) = _
  after_results
  rfl

/-- The kernel program's result, as a function of its arguments. -/
def kernelResult (x0 : S64x16384x5.Idx → EReal) (x1 x2 : S24x4.Idx → EReal) (x3 : S5x64.Idx → EReal) (x4 : S64.Idx → EReal)
    (x5 : S64x32.Idx → EReal) (x6 : S32.Idx → EReal) (x7 : S32x1.Idx → EReal) (x8 : S1.Idx → EReal) : S64x16384.Idx → EReal :=
  shapeCast S64x16384 (tokensOut (shapeCast S1048576x5 x0 shapeCasts_S64x16384x5_S1048576x5)
    (concatenate S24x8 1 [⟨S24x4, x1⟩, ⟨S24x4, x2⟩] concatenates_S24x4_S24x4_S24x8_d1) x3 (shapeCast S64x1 x4 shapeCasts_S64_S64x1) x5
    (shapeCast S32x1 x6 shapeCasts_S32_S32x1) x7 (shapeCast S1x1 x8 shapeCasts_S1_S1x1)) shapeCasts_S1048576_S64x16384

/-- What the host's last line leaves in the result buffer: the region's output vector viewed as a matrix. -/
theorem tail_result (c : Dev nD) :
    (Pipeline.afterTail₀ cfgs (dats m) 0 (V0 m) [hostOps1] c main_v6 : S64x16384.Idx → EReal)
      = kernelResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v5)
      = tokensOut (V m c main_v0) (V m c main_v1) (V m c main_arg3) (V m c main_v2) (V m c main_arg5) (V m c main_v3)
          (V m c main_arg7) (V m c main_v4) :=
    (Pipeline.withArrays_arr spec0 launch0.win.arr_inj c _ _ 8).trans (final m c)
  rw [hA, V_tokens, V_table, V_bias1, V_bias2, V_bias3, V_main_arg3, V_main_arg5, V_main_arg7]
  rfl

/-- THE KERNEL PROGRAM'S RUN: it terminates with its result buffer at `kernelResult` of its arguments, the arguments
    unchanged. -/
theorem kernel_run : θ_run (defs (F := Ideal)) (onTc (τ := τ) (main (F := Ideal))) ⟨m, fun _ => 0, ρ⟩ (fun r => ∀ c : Dev nD,
      r.2.mem ((c.tc : Thread nD τ).loc main_v6)
        = kernelResult (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v6 (Pipeline.mem_restRefs_of main_v6 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c)⟩)
    (run_main m ρ)

end Kernel

/-! ## The two results are one function of the arguments -/

open Cert.KernelIdeal in
/-- THE BRIDGE: the reference's result is the kernel program's result, as functions of the nine arguments. At `(b, s)` both
    are the token function of row `16384·b + s`; the joined table's columns 0–3 are the scale table's and its columns 4–7
    the shift table's; a bias turned into a column reads the bias. -/
theorem results_equal (x0 : S64x16384x5.Idx → EReal) (x1 x2 : S24x4.Idx → EReal) (x3 : S5x64.Idx → EReal) (x4 : S64.Idx → EReal)
    (x5 : S64x32.Idx → EReal) (x6 : S32.Idx → EReal) (x7 : S32x1.Idx → EReal) (x8 : S1.Idx → EReal) :
    Cert.ReferenceIdeal.Read.val_main_v58 (F := Ideal) x0 x1 x2 x3 x4 x5 x6 x7 x8 = kernelResult x0 x1 x2 x3 x4 x5 x6 x7 x8 := by
  funext i
  obtain ⟨b, s, rfl⟩ : ∃ (b : Fin 64) (s : Fin 16384), i = ix2 b s := ⟨i 0, i 1, eq_ix2 i⟩
  have hn : b.val * 16384 + s.val < 1048576 := by have := b.isLt; have := s.isLt; omega
  rw [Cert.ReferenceIdeal.Token.result_at x0 x1 x2 x3 x4 x5 x6 x7 x8 b s ⟨_, hn⟩ rfl]
  unfold kernelResult
  rw [shapeCast_apply _ _ (ix2 b s) (ix1 (⟨b.val * 16384 + s.val, hn⟩ : Fin 1048576)) (by
    rw [Shape.rowMajor_val_one, Shape.rowMajor_val_two]; rfl)]
  unfold Cert.KernelIdeal.Whole.tokensOut
  have g1 : (fun (l : Fin 24) (k : Fin 4) => concatenate S24x8 1 [⟨S24x4, x1⟩, ⟨S24x4, x2⟩]
      Cert.KernelIdeal.Gen.concatenates_S24x4_S24x4_S24x8_d1 (ix2 l (k.castAdd 4))) = fun l k => x1 (ix2 l k) := by
    funext l k
    exact Cert.LibFeatureMajor.beside_col_left x1 x2 _ l (k.castAdd 4) k.isLt
  have g2 : (fun (l : Fin 24) (k : Fin 4) => concatenate S24x8 1 [⟨S24x4, x1⟩, ⟨S24x4, x2⟩]
      Cert.KernelIdeal.Gen.concatenates_S24x4_S24x4_S24x8_d1 (ix2 l (k.natAdd 4))) = fun l k => x2 (ix2 l k) := by
    funext l k
    exact Cert.LibFeatureMajor.beside_col_right x1 x2 _ l (k.natAdd 4) k (by show k.val + 4 = 4 + k.val; omega)
  have c1 : (fun j : Fin 64 => shapeCast S64x1 x4 Cert.KernelIdeal.Gen.shapeCasts_S64_S64x1 (ix2 j (0 : Fin 1))) = fun j => x4 (ix1 j) :=
    funext fun j => Cert.Keepdims.shapeCast_a_a1_apply x4 _ j 0
  have c2 : (fun l : Fin 32 => shapeCast S32x1 x6 Cert.KernelIdeal.Gen.shapeCasts_S32_S32x1 (ix2 l (0 : Fin 1))) = fun l => x6 (ix1 l) :=
    funext fun l => Cert.Keepdims.shapeCast_a_a1_apply x6 _ l 0
  have c3 : shapeCast S1x1 x8 Cert.KernelIdeal.Gen.shapeCasts_S1_S1x1 (ix2 (0 : Fin 1) (0 : Fin 1)) = x8 (ix1 (0 : Fin 1)) :=
    Cert.Keepdims.shapeCast_a_a1_apply x8 _ 0 0
  simp only [g1, g2, c1, c2, c3]
  rfl

end Cert.Bridge

end
-- ==== Proof.lean ====
/-
  A per-token router — layer normalisation of four features with a scale and a shift chosen, per token, among 24
  rows by a fifth "position" feature, then a 5 → 64 → 32 → 1 perceptron — computed by a blocked kernel that keeps the
  feature axis first, against a row-by-row reference. Over the extended reals the two compute ONE function of the nine
  argument arrays.

  Where the two texts differ, and the law that joins them:
  * the kernel multiplies the centred feature by the reciprocal square root of the shifted variance, the reference
    divides by its square root. The shifted variance is a quarter of a sum of squares plus a positive constant, so it
    is positive (possibly `+∞`) whatever the inputs are, and there the two agree (Proof/TokenSpec.lean);
  * the kernel picks the table row by summing all 24 rows against the indicator of the layer number, the reference
    reads the row; every term but one is a product with zero (Proof/TokenSpec.lean);
  * the kernel's products are weight-times-activation on feature-major blocks, the reference's activation-times-weight
    on rows: commutativity, term by term (Proof/KernelToken.lean, Proof/RefToken.lean);
  * the kernel works on 64 blocks of 16384 tokens that tile the million tokens (Proof/KernelArray.lean), with the tables
    joined and the biases turned into columns by the host beforehand (Proof/Bridge.lean).
  No property of the inputs is used: the precondition is never opened.

  The kernel's and the idealized kernel's frames are the generated ones; the reference's is its generated run with the
  result dropped; the idealization rewrote nothing, so nothing is to be preserved.
-/
import proofs.«132715_j64175401337509_2_alg».proof.Defs
import proofs.«132715_j64175401337509_2_alg».proof.Proof.Gen.Kernel
import proofs.«132715_j64175401337509_2_alg».proof.Proof.Gen.Kernel.Frame
import proofs.«132715_j64175401337509_2_alg».proof.Proof.Gen.KernelIdeal
import proofs.«132715_j64175401337509_2_alg».proof.Proof.Gen.KernelIdeal.Frame
import proofs.«132715_j64175401337509_2_alg».proof.Proof.Gen.ReferenceIdeal
import proofs.«132715_j64175401337509_2_alg».proof.Proof.Gen.ReferenceIdeal.Run
import proofs.«132715_j64175401337509_2_alg».proof.Proof.Gen.ReferenceIdeal.Read
import proofs.«132715_j64175401337509_2_alg».proof.Proof.Gen.Pre_finite_inputs
import proofs.«132715_j64175401337509_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run, and their results are one array: the kernel program's
    is `kernelResult` of its arguments, the reference's is its own term of the same arguments, and the two terms are one
    function (`Cert.Bridge.results_equal`). -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.Bridge.results_equal _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
